-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S768x256 : Shape := ⟨2, ![768, 256]⟩
abbrev S256x256 : Shape := ⟨2, ![256, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S131072x256 .f32) (main_arg1 : FVec F S768x256 .f32) (main_arg2 : FVec F S256x256 .f32) (main_arg3 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S131072x256 : Shape := ⟨2, ![131072, 256]⟩
abbrev S768x256 : Shape := ⟨2, ![768, 256]⟩
abbrev S256x256 : Shape := ⟨2, ![256, 256]⟩
abbrev S256 : Shape := ⟨1, ![256]⟩
abbrev S256x768 : Shape := ⟨2, ![256, 768]⟩
abbrev S1x256 : Shape := ⟨2, ![1, 256]⟩
abbrev S2048x256 : Shape := ⟨2, ![2048, 256]⟩
abbrev S2048x768 : Shape := ⟨2, ![2048, 768]⟩
abbrev S2048x32 : Shape := ⟨2, ![2048, 32]⟩
abbrev S32x64x32 : Shape := ⟨3, ![32, 64, 32]⟩
abbrev S32x64x64 : Shape := ⟨3, ![32, 64, 64]⟩
abbrev S32x64 : Shape := ⟨2, ![32, 64]⟩
abbrev S32x64x1 : Shape := ⟨3, ![32, 64, 1]⟩

abbrev nBuf : Space → Nat
  | .hbm => 10
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S768x256, .f32⟩
  | .hbm, ⟨2, _⟩ => ⟨S256x256, .f32⟩
  | .hbm, ⟨3, _⟩ => ⟨S256, .f32⟩
  | .hbm, ⟨4, _⟩ => ⟨S256x768, .f32⟩
  | .hbm, ⟨5, _⟩ => ⟨S256x768, .bf16⟩
  | .hbm, ⟨6, _⟩ => ⟨S256x256, .f32⟩
  | .hbm, ⟨7, _⟩ => ⟨S256x256, .bf16⟩
  | .hbm, ⟨8, _⟩ => ⟨S1x256, .f32⟩
  | .hbm, ⟨9, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S256x768, .bf16⟩
  | .local _ .vmem, ⟨3, _⟩ => ⟨S256x256, .bf16⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S768x256_S256x768_1_0 : S768x256.Transposes [1, 0] S256x768
  bitsLt_bf16_f32 : FTy.bits .bf16 < FTy.bits .f32
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  slices_S2048x256_o0_0_S2048x32 : S2048x256.Slices ![0, 0] S2048x32
  shapeCasts_S2048x32_S32x64x32 : S2048x32.ShapeCasts S32x64x32
  reduces_S32x64x64_S32x64 : S32x64x64.Reduces [2] S32x64
  shapeCasts_S32x64_S32x64x1 : S32x64.ShapeCasts S32x64x1
  broadcasts_S32x64x1_S32x64x64 : S32x64x1.Broadcasts S32x64x64
  shapeCasts_S32x64x32_S2048x32 : S32x64x32.ShapeCasts S2048x32
  slices_S2048x256_o0_32_S2048x32 : S2048x256.Slices ![0, 32] S2048x32
  slices_S2048x256_o0_64_S2048x32 : S2048x256.Slices ![0, 64] S2048x32
  slices_S2048x256_o0_96_S2048x32 : S2048x256.Slices ![0, 96] S2048x32
  slices_S2048x256_o0_128_S2048x32 : S2048x256.Slices ![0, 128] S2048x32
  slices_S2048x256_o0_160_S2048x32 : S2048x256.Slices ![0, 160] S2048x32
  slices_S2048x256_o0_192_S2048x32 : S2048x256.Slices ![0, 192] S2048x32
  slices_S2048x256_o0_224_S2048x32 : S2048x256.Slices ![0, 224] S2048x32
  concatenates_S2048x32_S2048x32_S2048x32_S2048x32_S2048x32_S2048x32_S2048x32_S2048x32_S2048x256_d1 : Shape.Concatenates [S2048x32, S2048x32, S2048x32, S2048x32, S2048x32, S2048x32, S2048x32, S2048x32] S2048x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x768_S2048x768_1_0_0_1_n_n_wf : DotDims.WF S2048x256 S256x768 S2048x768 [1] [0] [0] [1] [] []
  dot_S32x64x32_S32x64x32_S32x64x64_2_2_1_1_0_0_wf : DotDims.WF S32x64x32 S32x64x32 S32x64x64 [2] [2] [1] [1] [0] [0]
  dot_S32x64x64_S32x64x32_S32x64x32_2_1_1_2_0_0_wf : DotDims.WF S32x64x64 S32x64x32 S32x64x32 [2] [1] [1] [2] [0] [0]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S131072x256.size a
  hwx0_4 : ∀ i : grid0.Coords, EltTy.bits .f32 = 32 ∨ (Rect.block (s := S131072x256) S2048x256.size (cc0_transform_4 i) (hinb0_4 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S32x64x32_S32x64x32_S32x64x64_2_2_1_1_0_0 : DotDims S32x64x32 S32x64x32 S32x64x64 where
  lhsContracting := [2]
  rhsContracting := [2]
  lhsNonContracting := [1]
  rhsNonContracting := [1]
  lhsBatch := [0]
  rhsBatch := [0]
  wf := dot_S32x64x32_S32x64x32_S32x64x64_2_2_1_1_0_0_wf
def dot_S32x64x64_S32x64x32_S32x64x32_2_1_1_2_0_0 : DotDims S32x64x64 S32x64x32 S32x64x32 where
  lhsContracting := [2]
  rhsContracting := [1]
  lhsNonContracting := [1]
  rhsNonContracting := [2]
  lhsBatch := [0]
  rhsBatch := [0]
  wf := dot_S32x64x64_S32x64x32_S32x64x32_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S768x256 : Shape := ⟨2, ![768, 256]⟩
abbrev S256x256 : Shape := ⟨2, ![256, 256]⟩
abbrev S256 : Shape := ⟨1, ![256]⟩
abbrev S256x768 : Shape := ⟨2, ![256, 768]⟩
abbrev S131072x768 : Shape := ⟨2, ![131072, 768]⟩
abbrev S131072x3x256 : Shape := ⟨3, ![131072, 3, 256]⟩
abbrev S131072x1x256 : Shape := ⟨3, ![131072, 1, 256]⟩
abbrev S2048x64x8x32 : Shape := ⟨4, ![2048, 64, 8, 32]⟩
abbrev S2048x8x64x32 : Shape := ⟨4, ![2048, 8, 64, 32]⟩
abbrev S16384x64x32 : Shape := ⟨3, ![16384, 64, 32]⟩
abbrev S16384x64x64 : Shape := ⟨3, ![16384, 64, 64]⟩
abbrev S_ : Shape := ⟨0, ![]⟩
abbrev S16384x64 : Shape := ⟨2, ![16384, 64]⟩
abbrev S16384x64x1 : Shape := ⟨3, ![16384, 64, 1]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S768x256, .f32⟩
  | .hbm, ⟨2, _⟩ => ⟨S256x256, .f32⟩
  | .hbm, ⟨3, _⟩ => ⟨S256, .f32⟩
  | .hbm, ⟨4, _⟩ => ⟨S256x768, .f32⟩
  | .hbm, ⟨5, _⟩ => ⟨S131072x768, .f32⟩
  | .hbm, ⟨6, _⟩ => ⟨S131072x3x256, .f32⟩
  | .hbm, ⟨7, _⟩ => ⟨S131072x1x256, .f32⟩
  | .hbm, ⟨8, _⟩ => ⟨S131072x256, .f32⟩
  | .hbm, ⟨9, _⟩ => ⟨S131072x1x256, .f32⟩
  | .hbm, ⟨10, _⟩ => ⟨S131072x256, .f32⟩
  | .hbm, ⟨11, _⟩ => ⟨S131072x1x256, .f32⟩
  | .hbm, ⟨12, _⟩ => ⟨S131072x256, .f32⟩
  | .hbm, ⟨13, _⟩ => ⟨S2048x64x8x32, .f32⟩
  | .hbm, ⟨14, _⟩ => ⟨S2048x8x64x32, .f32⟩
  | .hbm, ⟨15, _⟩ => ⟨S16384x64x32, .f32⟩
  | .hbm, ⟨16, _⟩ => ⟨S2048x64x8x32, .f32⟩
  | .hbm, ⟨17, _⟩ => ⟨S2048x8x64x32, .f32⟩
  | .hbm, ⟨18, _⟩ => ⟨S16384x64x32, .f32⟩
  | .hbm, ⟨19, _⟩ => ⟨S2048x64x8x32, .f32⟩
  | .hbm, ⟨20, _⟩ => ⟨S2048x8x64x32, .f32⟩
  | .hbm, ⟨21, _⟩ => ⟨S16384x64x32, .f32⟩
  | .hbm, ⟨22, _⟩ => ⟨S16384x64x64, .f32⟩
  | .hbm, ⟨23, _⟩ => ⟨S_, .f32⟩
  | .hbm, ⟨24, _⟩ => ⟨S_, .f32⟩
  | .hbm, ⟨25, _⟩ => ⟨S16384x64x64, .f32⟩
  | .hbm, ⟨26, _⟩ => ⟨S16384x64x64, .f32⟩
  | .hbm, ⟨27, _⟩ => ⟨S_, .f32⟩
  | .hbm, ⟨28, _⟩ => ⟨S16384x64, .f32⟩
  | .hbm, ⟨29, _⟩ => ⟨S_, .f32⟩
  | .hbm, ⟨30, _⟩ => ⟨S16384x64, .f32⟩
  | .hbm, ⟨31, _⟩ => ⟨S16384x64, .f32⟩
  | .hbm, ⟨32, _⟩ => ⟨S16384x64x1, .f32⟩
  | .hbm, ⟨33, _⟩ => ⟨S16384x64x64, .f32⟩
  | .hbm, ⟨34, _⟩ => ⟨S16384x64x64, .f32⟩
  | .hbm, ⟨35, _⟩ => ⟨S16384x64x64, .f32⟩
  | .hbm, ⟨36, _⟩ => ⟨S_, .f32⟩
  | .hbm, ⟨37, _⟩ => ⟨S16384x64, .f32⟩
  | .hbm, ⟨38, _⟩ => ⟨S16384x64x1, .f32⟩
  | .hbm, ⟨39, _⟩ => ⟨S16384x64x64, .f32⟩
  | .hbm, ⟨40, _⟩ => ⟨S16384x64x64, .f32⟩
  | .hbm, ⟨41, _⟩ => ⟨S16384x64x32, .f32⟩
  | .hbm, ⟨42, _⟩ => ⟨S2048x8x64x32, .f32⟩
  | .hbm, ⟨43, _⟩ => ⟨S2048x64x8x32, .f32⟩
  | .hbm, ⟨44, _⟩ => ⟨S131072x256, .f32⟩
  | .hbm, ⟨45, _⟩ => ⟨S256x256, .f32⟩
  | .hbm, ⟨46, _⟩ => ⟨S131072x256, .f32⟩
  | .hbm, ⟨47, _⟩ => ⟨S1x256, .f32⟩
  | .hbm, ⟨48, _⟩ => ⟨S131072x256, .f32⟩
  | .hbm, ⟨49, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]

class Facts₀ : Prop where
  transposes_S768x256_S256x768_1_0 : S768x256.Transposes [1, 0] S256x768
  shapeCasts_S131072x768_S131072x3x256 : S131072x768.ShapeCasts S131072x3x256
  slices_S131072x3x256_S131072x1x256_0_0_0 : S131072x3x256.Slices ![0, 0, 0] S131072x1x256
  shapeCasts_S131072x1x256_S131072x256 : S131072x1x256.ShapeCasts S131072x256
  slices_S131072x3x256_S131072x1x256_0_1_0 : S131072x3x256.Slices ![0, 1, 0] S131072x1x256
  slices_S131072x3x256_S131072x1x256_0_2_0 : S131072x3x256.Slices ![0, 2, 0] S131072x1x256
  shapeCasts_S131072x256_S2048x64x8x32 : S131072x256.ShapeCasts S2048x64x8x32
  transposes_S2048x64x8x32_S2048x8x64x32_0_2_1_3 : S2048x64x8x32.Transposes [0, 2, 1, 3] S2048x8x64x32
  shapeCasts_S2048x8x64x32_S16384x64x32 : S2048x8x64x32.ShapeCasts S16384x64x32
  bcast_S_S16384x64x64 : S_.BroadcastsInDim S16384x64x64 (![] : Fin 0 → Fin S16384x64x64.rank)
  reducesTo_S16384x64x64_S16384x64_d2 : S16384x64x64.ReducesTo [2] S16384x64
  h_S_ : 0 < S_.numel
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  bcast_S16384x64x1_S16384x64x64_0_1_2 : S16384x64x1.BroadcastsInDim S16384x64x64 (![0, 1, 2] : Fin 3 → Fin S16384x64x64.rank)
  shapeCasts_S16384x64x32_S2048x8x64x32 : S16384x64x32.ShapeCasts S2048x8x64x32
  transposes_S2048x8x64x32_S2048x64x8x32_0_2_1_3 : S2048x8x64x32.Transposes [0, 2, 1, 3] S2048x64x8x32
  shapeCasts_S2048x64x8x32_S131072x256 : S2048x64x8x32.ShapeCasts S131072x256
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  dot_S131072x256_S256x768_S131072x768_1_0_0_1_n_n_wf : DotDims.WF S131072x256 S256x768 S131072x768 [1] [0] [0] [1] [] []
  dot_S16384x64x32_S16384x64x32_S16384x64x64_2_2_1_1_0_0_wf : DotDims.WF S16384x64x32 S16384x64x32 S16384x64x64 [2] [2] [1] [1] [0] [0]
  dot_S16384x64x64_S16384x64x32_S16384x64x32_2_1_1_2_0_0_wf : DotDims.WF S16384x64x64 S16384x64x32 S16384x64x32 [2] [1] [1] [2] [0] [0]
  dot_S131072x256_S256x256_S131072x256_1_0_0_1_n_n_wf : DotDims.WF S131072x256 S256x256 S131072x256 [1] [0] [0] [1] [] []

variable [Facts₀]

def dot_S131072x256_S256x768_S131072x768_1_0_0_1_n_n : DotDims S131072x256 S256x768 S131072x768 where
  lhsContracting := [1]
  rhsContracting := [0]
  lhsNonContracting := [0]
  rhsNonContracting := [1]
  lhsBatch := []
  rhsBatch := []
  wf := dot_S131072x256_S256x768_S131072x768_1_0_0_1_n_n_wf
def dot_S16384x64x32_S16384x64x32_S16384x64x64_2_2_1_1_0_0 : DotDims S16384x64x32 S16384x64x32 S16384x64x64 where
  lhsContracting := [2]
  rhsContracting := [2]
  lhsNonContracting := [1]
  rhsNonContracting := [1]
  lhsBatch := [0]
  rhsBatch := [0]
  wf := dot_S16384x64x32_S16384x64x32_S16384x64x64_2_2_1_1_0_0_wf
def dot_S16384x64x64_S16384x64x32_S16384x64x32_2_1_1_2_0_0 : DotDims S16384x64x64 S16384x64x32 S16384x64x32 where
  lhsContracting := [2]
  rhsContracting := [1]
  lhsNonContracting := [1]
  rhsNonContracting := [2]
  lhsBatch := [0]
  rhsBatch := [0]
  wf := dot_S16384x64x64_S16384x64x32_S16384x64x32_2_1_1_2_0_0_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.KHead.lean ====
/- One grid point of the kernel as a function of its four input blocks.

   The body projects the tile to q | k | v (one product), treats each of the 8 heads alike — the head's 32 columns of
   q, k and v re-laid as 32 windows of 64 tokens, the scaled energies, the softmax over the 64 keys, the weighted sum
   of the values, re-laid as 2048 rows —, sets the heads side by side and projects once more. Here the per-head
   computation is named once (`headV`), and the body's stored value is shown to be the eight heads' `headV`
   under the final projection. -/
import proofs.«135834_j56075093017289_1_alg».proof.Proof.Gen.KernelIdeal.Frame
import Idealize.ShloMosaic.Lib.Pipeline.Value

noncomputable section

namespace Cert.KernelIdeal.Tile

open Cert.KernelIdeal Cert.KernelIdeal.Gen Idealize.ShloMosaic Idealize.ShloMosaic.TcCoe Idealize.SL.Sem

variable {F : FTy → Type} [FloatOps F]

/-- The 32 columns at offset `o` of a [2048, 256] value, re-laid as 32 windows of 64 tokens. -/
def cutV (o : Fin 2 → Nat) (hs : S2048x256.Slices o S2048x32) (x : FVec F S2048x256 .f32) : FVec F S32x64x32 .bf16 :=
  truncf .bf16 (shapeCast S32x64x32 (extractStridedSlice S2048x32 o x hs) shapeCasts_S2048x32_S32x64x32) bitsLt_bf16_f32

/-- The scaled energies of every window: queries against keys, times 1/16. -/
def energyV (qh kh : FVec F S32x64x32 .bf16) : FVec F S32x64x64 .f32 :=
  mulf (matmul dot_S32x64x32_S32x64x32_S32x64x64_2_2_1_1_0_0 none qh kh (constant S32x64x64 .f32 0x00000000#32))
    (broadcast S32x64x64 (Scalar.ofBits .f32 0x3D800000#32))

/-- Each row's maximum, from -∞. -/
def maxV (e : FVec F S32x64x64 .f32) : FVec F S32x64 .f32 :=
  maximumf (broadcast S32x64 (Scalar.ofBits .f32 0xFF800000#32))
    (multiReduction .maximumf [2] S32x64 e 0xFF800000#32 reduces_S32x64x64_S32x64 (.inl rfl) rfl)

/-- The exponentials of the energies' distances below their row's maximum. -/
def expV (e : FVec F S32x64x64 .f32) : FVec F S32x64x64 .f32 :=
  exp (subf e (broadcastTo S32x64x64 (shapeCast S32x64x1 (maxV e) shapeCasts_S32x64_S32x64x1) broadcasts_S32x64x1_S32x64x64))

/-- The softmax weights: the exponentials over their row's sum. -/
def softV (e : FVec F S32x64x64 .f32) : FVec F S32x64x64 .bf16 :=
  truncf .bf16 (divf (expV e) (broadcastTo S32x64x64 (shapeCast S32x64x1
    (multiReduction .add [2] S32x64 (expV e) 0x00000000#32 reduces_S32x64x64_S32x64 (.inl rfl) rfl)
    shapeCasts_S32x64_S32x64x1) broadcasts_S32x64x1_S32x64x64)) bitsLt_bf16_f32

/-- The weighted sums of the values, re-laid as 2048 rows. -/
def mixV (a : FVec F S32x64x64 .bf16) (vh : FVec F S32x64x32 .bf16) : FVec F S2048x32 .f32 :=
  shapeCast S2048x32 (matmul dot_S32x64x64_S32x64x32_S32x64x32_2_1_1_2_0_0 none a vh (constant S32x64x32 .f32 0x00000000#32))
    shapeCasts_S32x64x32_S2048x32

/-- One head: from the 32 columns at offset `o` of q, k and v. -/
def headV (o : Fin 2 → Nat) (hs : S2048x256.Slices o S2048x32) (q k v : FVec F S2048x256 .f32) : FVec F S2048x32 .f32 :=
  mixV (softV (energyV (cutV o hs q) (cutV o hs k))) (cutV o hs v)

/-- The heads side by side under the output projection, plus the bias row. -/
def finalV (hd : Fin 8 → FVec F S2048x32 .f32) (x2 : Vec F S256x256 .bf16) (x3 : Vec F S1x256 .f32) : FVec F S2048x256 .f32 :=
  addf (matmul dot_S2048x256_S256x256_S2048x256_1_0_0_1_n_n none
      (truncf .bf16 (concatenate S2048x256 1 [⟨S2048x32, hd 0⟩, ⟨S2048x32, hd 1⟩, ⟨S2048x32, hd 2⟩, ⟨S2048x32, hd 3⟩, ⟨S2048x32, hd 4⟩, ⟨S2048x32, hd 5⟩, ⟨S2048x32, hd 6⟩, ⟨S2048x32, hd 7⟩]
        concatenates_S2048x32_S2048x32_S2048x32_S2048x32_S2048x32_S2048x32_S2048x32_S2048x32_S2048x256_d1) bitsLt_bf16_f32)
      (shapeCast S256x256 x2 shapeCasts_S256x256_S256x256) (constant S2048x256 .f32 0x00000000#32))
    (broadcastTo S2048x256 (shapeCast S1x256 x3 shapeCasts_S1x256_S1x256) broadcasts_S1x256_S2048x256)

/-- Head `h` of the tile whose projections are q, k, v. -/
def headK (q k v : FVec F S2048x256 .f32) : Fin 8 → FVec F S2048x32 .f32
  | ⟨0, _⟩ => headV ![0, 0] slices_S2048x256_o0_0_S2048x32 q k v
  | ⟨1, _⟩ => headV ![0, 32] slices_S2048x256_o0_32_S2048x32 q k v
  | ⟨2, _⟩ => headV ![0, 64] slices_S2048x256_o0_64_S2048x32 q k v
  | ⟨3, _⟩ => headV ![0, 96] slices_S2048x256_o0_96_S2048x32 q k v
  | ⟨4, _⟩ => headV ![0, 128] slices_S2048x256_o0_128_S2048x32 q k v
  | ⟨5, _⟩ => headV ![0, 160] slices_S2048x256_o0_160_S2048x32 q k v
  | ⟨6, _⟩ => headV ![0, 192] slices_S2048x256_o0_192_S2048x32 q k v
  | ⟨7, _⟩ => headV ![0, 224] slices_S2048x256_o0_224_S2048x32 q k v

/-- The value one grid point stores, from its four input blocks. -/
def tileV (x0 : Vec F S2048x256 .f32) (x1 : Vec F S256x768 .bf16) (x2 : Vec F S256x256 .bf16) (x3 : Vec F S1x256 .f32) :
    FVec F S2048x256 .f32 :=
  finalV (headK (k0_pay3 x0 x1) (k0_pay4 x0 x1) (k0_pay5 x0 x1)) x2 x3

/-- The body's one store holds `tileV` of the loaded blocks: the same operations, named. -/
theorem out_eq (x0 : Vec F S2048x256 .f32) (x1 : Vec F S256x768 .bf16) (x2 : Vec F S256x256 .bf16) (x3 : Vec F S1x256 .f32) :
    out0_4 x0 x1 x2 x3 = View.canon [⟨r0_0, tileV (View.ld x0 r0_0) (View.ld x1 r0_1) (View.ld x2 r0_2) (View.ld x3 r0_3)⟩] := by
  rfl

end Cert.KernelIdeal.Tile

end
-- ==== Proof.KDots.lean ====
/- The kernel's four matrix products read at an index, at the ideal instance: each entry is the plain sum over the
   contracted axis of the operands' products (the accumulator is the zero splat). The two batched ones contract within
   a window: queries against keys over the head's 32 columns, weights against values over the window's 64 tokens. -/
import proofs.«135834_j56075093017289_1_alg».proof.Proof.Gen.KernelIdeal
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

theorem lhs_qkv_0 (i : S2048x768.Idx) (q : dot_S2048x256_S256x768_S2048x768_1_0_0_1_n_n.contr.Idx) :
    (dot_S2048x256_S256x768_S2048x768_1_0_0_1_n_n.lhsIdx i q 0).val = (i 0).val := by
  unfold DotDims.lhsIdx
  rw [dif_neg (show ¬(0 : Fin S2048x256.rank) ∈ dot_S2048x256_S256x768_S2048x768_1_0_0_1_n_n.lhsBatch by decide), dif_pos (show (0 : Fin S2048x256.rank) ∈ dot_S2048x256_S256x768_S2048x768_1_0_0_1_n_n.lhsNonContracting by decide)]
  rfl
theorem lhs_qkv_1 (i : S2048x768.Idx) (q : dot_S2048x256_S256x768_S2048x768_1_0_0_1_n_n.contr.Idx) :
    (dot_S2048x256_S256x768_S2048x768_1_0_0_1_n_n.lhsIdx i q 1).val = (q ⟨0, by decide⟩).val :=
  dot_S2048x256_S256x768_S2048x768_1_0_0_1_n_n.lhsIdx_val_of_single rfl i q
theorem rhs_qkv_0 (i : S2048x768.Idx) (q : dot_S2048x256_S256x768_S2048x768_1_0_0_1_n_n.contr.Idx) :
    (dot_S2048x256_S256x768_S2048x768_1_0_0_1_n_n.rhsIdx i q 0).val = (q ⟨0, by decide⟩).val :=
  dot_S2048x256_S256x768_S2048x768_1_0_0_1_n_n.rhsIdx_val_of_single rfl i q
theorem rhs_qkv_1 (i : S2048x768.Idx) (q : dot_S2048x256_S256x768_S2048x768_1_0_0_1_n_n.contr.Idx) :
    (dot_S2048x256_S256x768_S2048x768_1_0_0_1_n_n.rhsIdx i q 1).val = (i 1).val := by
  unfold DotDims.rhsIdx
  rw [dif_neg (show ¬(1 : Fin S256x768.rank) ∈ dot_S2048x256_S256x768_S2048x768_1_0_0_1_n_n.rhsBatch by decide), dif_pos (show (1 : Fin S256x768.rank) ∈ dot_S2048x256_S256x768_S2048x768_1_0_0_1_n_n.rhsNonContracting by decide)]
  rfl
/-- The projection: entry (ρ, j) is the sum over the 256 input columns. -/
theorem mm_qkv (l : FVec Ideal S2048x256 .bf16) (r : FVec Ideal S256x768 .bf16) (ρ : Fin 2048) (j : Fin 768) :
    matmul dot_S2048x256_S256x768_S2048x768_1_0_0_1_n_n none l r (constant S2048x768 .f32 0x00000000#32) (ix2 ρ j) = ∑ k : Fin 256, l (ix2 ρ k) * r (ix2 k j) := by
  simp only [matmul]
  rw [Ideal.matmul_constant_zero_apply, ← Equiv.sum_comp (ValueIdx.contrEquiv1 dot_S2048x256_S256x768_S2048x768_1_0_0_1_n_n 256 rfl rfl).symm]
  refine Finset.sum_congr rfl fun k _ => ?_
  have hk := ValueIdx.contrEquiv1_symm_val dot_S2048x256_S256x768_S2048x768_1_0_0_1_n_n 256 rfl rfl k
  have el : dot_S2048x256_S256x768_S2048x768_1_0_0_1_n_n.lhsIdx (ix2 ρ j) ((ValueIdx.contrEquiv1 dot_S2048x256_S256x768_S2048x768_1_0_0_1_n_n 256 rfl rfl).symm k) = ix2 ρ k := funext fun a => Fin.ext (by
    match a with
    | ⟨0, _⟩ => exact lhs_qkv_0 _ _
    | ⟨1, _⟩ => exact (lhs_qkv_1 _ _).trans hk)
  have er : dot_S2048x256_S256x768_S2048x768_1_0_0_1_n_n.rhsIdx (ix2 ρ j) ((ValueIdx.contrEquiv1 dot_S2048x256_S256x768_S2048x768_1_0_0_1_n_n 256 rfl rfl).symm k) = ix2 k j := funext fun a => Fin.ext (by
    match a with
    | ⟨0, _⟩ => exact (rhs_qkv_0 _ _).trans hk
    | ⟨1, _⟩ => exact rhs_qkv_1 _ _)
  rw [el, er]

theorem lhs_energy_0 (i : S32x64x64.Idx) (q : dot_S32x64x32_S32x64x32_S32x64x64_2_2_1_1_0_0.contr.Idx) :
    (dot_S32x64x32_S32x64x32_S32x64x64_2_2_1_1_0_0.lhsIdx i q 0).val = (i 0).val := by
  unfold DotDims.lhsIdx
  rw [dif_pos (show (0 : Fin S32x64x32.rank) ∈ dot_S32x64x32_S32x64x32_S32x64x64_2_2_1_1_0_0.lhsBatch by decide)]
  rfl
theorem lhs_energy_1 (i : S32x64x64.Idx) (q : dot_S32x64x32_S32x64x32_S32x64x64_2_2_1_1_0_0.contr.Idx) :
    (dot_S32x64x32_S32x64x32_S32x64x64_2_2_1_1_0_0.lhsIdx i q 1).val = (i 1).val := by
  unfold DotDims.lhsIdx
  rw [dif_neg (show ¬(1 : Fin S32x64x32.rank) ∈ dot_S32x64x32_S32x64x32_S32x64x64_2_2_1_1_0_0.lhsBatch by decide), dif_pos (show (1 : Fin S32x64x32.rank) ∈ dot_S32x64x32_S32x64x32_S32x64x64_2_2_1_1_0_0.lhsNonContracting by decide)]
  rfl
theorem lhs_energy_2 (i : S32x64x64.Idx) (q : dot_S32x64x32_S32x64x32_S32x64x64_2_2_1_1_0_0.contr.Idx) :
    (dot_S32x64x32_S32x64x32_S32x64x64_2_2_1_1_0_0.lhsIdx i q 2).val = (q ⟨0, by decide⟩).val :=
  dot_S32x64x32_S32x64x32_S32x64x64_2_2_1_1_0_0.lhsIdx_val_of_single rfl i q
theorem rhs_energy_0 (i : S32x64x64.Idx) (q : dot_S32x64x32_S32x64x32_S32x64x64_2_2_1_1_0_0.contr.Idx) :
    (dot_S32x64x32_S32x64x32_S32x64x64_2_2_1_1_0_0.rhsIdx i q 0).val = (i 0).val := by
  unfold DotDims.rhsIdx
  rw [dif_pos (show (0 : Fin S32x64x32.rank) ∈ dot_S32x64x32_S32x64x32_S32x64x64_2_2_1_1_0_0.rhsBatch by decide)]
  rfl
theorem rhs_energy_1 (i : S32x64x64.Idx) (q : dot_S32x64x32_S32x64x32_S32x64x64_2_2_1_1_0_0.contr.Idx) :
    (dot_S32x64x32_S32x64x32_S32x64x64_2_2_1_1_0_0.rhsIdx i q 1).val = (i 2).val := by
  unfold DotDims.rhsIdx
  rw [dif_neg (show ¬(1 : Fin S32x64x32.rank) ∈ dot_S32x64x32_S32x64x32_S32x64x64_2_2_1_1_0_0.rhsBatch by decide), dif_pos (show (1 : Fin S32x64x32.rank) ∈ dot_S32x64x32_S32x64x32_S32x64x64_2_2_1_1_0_0.rhsNonContracting by decide)]
  rfl
theorem rhs_energy_2 (i : S32x64x64.Idx) (q : dot_S32x64x32_S32x64x32_S32x64x64_2_2_1_1_0_0.contr.Idx) :
    (dot_S32x64x32_S32x64x32_S32x64x64_2_2_1_1_0_0.rhsIdx i q 2).val = (q ⟨0, by decide⟩).val :=
  dot_S32x64x32_S32x64x32_S32x64x64_2_2_1_1_0_0.rhsIdx_val_of_single rfl i q
/-- The energies: in window ν, query place g against key place kk, summed over the head's 32 columns. -/
theorem mm_energy (l : FVec Ideal S32x64x32 .bf16) (r : FVec Ideal S32x64x32 .bf16) (ν : Fin 32) (g kk : Fin 64) :
    matmul dot_S32x64x32_S32x64x32_S32x64x64_2_2_1_1_0_0 none l r (constant S32x64x64 .f32 0x00000000#32) (ix3 ν g kk) = ∑ k : Fin 32, l (ix3 ν g k) * r (ix3 ν kk k) := by
  simp only [matmul]
  rw [Ideal.matmul_constant_zero_apply, ← Equiv.sum_comp (ValueIdx.contrEquiv1 dot_S32x64x32_S32x64x32_S32x64x64_2_2_1_1_0_0 32 rfl rfl).symm]
  refine Finset.sum_congr rfl fun k _ => ?_
  have hk := ValueIdx.contrEquiv1_symm_val dot_S32x64x32_S32x64x32_S32x64x64_2_2_1_1_0_0 32 rfl rfl k
  have el : dot_S32x64x32_S32x64x32_S32x64x64_2_2_1_1_0_0.lhsIdx (ix3 ν g kk) ((ValueIdx.contrEquiv1 dot_S32x64x32_S32x64x32_S32x64x64_2_2_1_1_0_0 32 rfl rfl).symm k) = ix3 ν g k := funext fun a => Fin.ext (by
    match a with
    | ⟨0, _⟩ => exact lhs_energy_0 _ _
    | ⟨1, _⟩ => exact lhs_energy_1 _ _
    | ⟨2, _⟩ => exact (lhs_energy_2 _ _).trans hk)
  have er : dot_S32x64x32_S32x64x32_S32x64x64_2_2_1_1_0_0.rhsIdx (ix3 ν g kk) ((ValueIdx.contrEquiv1 dot_S32x64x32_S32x64x32_S32x64x64_2_2_1_1_0_0 32 rfl rfl).symm k) = ix3 ν kk k := funext fun a => Fin.ext (by
    match a with
    | ⟨0, _⟩ => exact rhs_energy_0 _ _
    | ⟨1, _⟩ => exact rhs_energy_1 _ _
    | ⟨2, _⟩ => exact (rhs_energy_2 _ _).trans hk)
  rw [el, er]

theorem lhs_mix_0 (i : S32x64x32.Idx) (q : dot_S32x64x64_S32x64x32_S32x64x32_2_1_1_2_0_0.contr.Idx) :
    (dot_S32x64x64_S32x64x32_S32x64x32_2_1_1_2_0_0.lhsIdx i q 0).val = (i 0).val := by
  unfold DotDims.lhsIdx
  rw [dif_pos (show (0 : Fin S32x64x64.rank) ∈ dot_S32x64x64_S32x64x32_S32x64x32_2_1_1_2_0_0.lhsBatch by decide)]
  rfl
theorem lhs_mix_1 (i : S32x64x32.Idx) (q : dot_S32x64x64_S32x64x32_S32x64x32_2_1_1_2_0_0.contr.Idx) :
    (dot_S32x64x64_S32x64x32_S32x64x32_2_1_1_2_0_0.lhsIdx i q 1).val = (i 1).val := by
  unfold DotDims.lhsIdx
  rw [dif_neg (show ¬(1 : Fin S32x64x64.rank) ∈ dot_S32x64x64_S32x64x32_S32x64x32_2_1_1_2_0_0.lhsBatch by decide), dif_pos (show (1 : Fin S32x64x64.rank) ∈ dot_S32x64x64_S32x64x32_S32x64x32_2_1_1_2_0_0.lhsNonContracting by decide)]
  rfl
theorem lhs_mix_2 (i : S32x64x32.Idx) (q : dot_S32x64x64_S32x64x32_S32x64x32_2_1_1_2_0_0.contr.Idx) :
    (dot_S32x64x64_S32x64x32_S32x64x32_2_1_1_2_0_0.lhsIdx i q 2).val = (q ⟨0, by decide⟩).val :=
  dot_S32x64x64_S32x64x32_S32x64x32_2_1_1_2_0_0.lhsIdx_val_of_single rfl i q
theorem rhs_mix_0 (i : S32x64x32.Idx) (q : dot_S32x64x64_S32x64x32_S32x64x32_2_1_1_2_0_0.contr.Idx) :
    (dot_S32x64x64_S32x64x32_S32x64x32_2_1_1_2_0_0.rhsIdx i q 0).val = (i 0).val := by
  unfold DotDims.rhsIdx
  rw [dif_pos (show (0 : Fin S32x64x32.rank) ∈ dot_S32x64x64_S32x64x32_S32x64x32_2_1_1_2_0_0.rhsBatch by decide)]
  rfl
theorem rhs_mix_1 (i : S32x64x32.Idx) (q : dot_S32x64x64_S32x64x32_S32x64x32_2_1_1_2_0_0.contr.Idx) :
    (dot_S32x64x64_S32x64x32_S32x64x32_2_1_1_2_0_0.rhsIdx i q 1).val = (q ⟨0, by decide⟩).val :=
  dot_S32x64x64_S32x64x32_S32x64x32_2_1_1_2_0_0.rhsIdx_val_of_single rfl i q
theorem rhs_mix_2 (i : S32x64x32.Idx) (q : dot_S32x64x64_S32x64x32_S32x64x32_2_1_1_2_0_0.contr.Idx) :
    (dot_S32x64x64_S32x64x32_S32x64x32_2_1_1_2_0_0.rhsIdx i q 2).val = (i 2).val := by
  unfold DotDims.rhsIdx
  rw [dif_neg (show ¬(2 : Fin S32x64x32.rank) ∈ dot_S32x64x64_S32x64x32_S32x64x32_2_1_1_2_0_0.rhsBatch by decide), dif_pos (show (2 : Fin S32x64x32.rank) ∈ dot_S32x64x64_S32x64x32_S32x64x32_2_1_1_2_0_0.rhsNonContracting by decide)]
  rfl
/-- The mix: in window ν, place g's weights against the values' column d, summed over the window's 64 tokens. -/
theorem mm_mix (l : FVec Ideal S32x64x64 .bf16) (r : FVec Ideal S32x64x32 .bf16) (ν : Fin 32) (g : Fin 64) (d : Fin 32) :
    matmul dot_S32x64x64_S32x64x32_S32x64x32_2_1_1_2_0_0 none l r (constant S32x64x32 .f32 0x00000000#32) (ix3 ν g d) = ∑ k : Fin 64, l (ix3 ν g k) * r (ix3 ν k d) := by
  simp only [matmul]
  rw [Ideal.matmul_constant_zero_apply, ← Equiv.sum_comp (ValueIdx.contrEquiv1 dot_S32x64x64_S32x64x32_S32x64x32_2_1_1_2_0_0 64 rfl rfl).symm]
  refine Finset.sum_congr rfl fun k _ => ?_
  have hk := ValueIdx.contrEquiv1_symm_val dot_S32x64x64_S32x64x32_S32x64x32_2_1_1_2_0_0 64 rfl rfl k
  have el : dot_S32x64x64_S32x64x32_S32x64x32_2_1_1_2_0_0.lhsIdx (ix3 ν g d) ((ValueIdx.contrEquiv1 dot_S32x64x64_S32x64x32_S32x64x32_2_1_1_2_0_0 64 rfl rfl).symm k) = ix3 ν g k := funext fun a => Fin.ext (by
    match a with
    | ⟨0, _⟩ => exact lhs_mix_0 _ _
    | ⟨1, _⟩ => exact lhs_mix_1 _ _
    | ⟨2, _⟩ => exact (lhs_mix_2 _ _).trans hk)
  have er : dot_S32x64x64_S32x64x32_S32x64x32_2_1_1_2_0_0.rhsIdx (ix3 ν g d) ((ValueIdx.contrEquiv1 dot_S32x64x64_S32x64x32_S32x64x32_2_1_1_2_0_0 64 rfl rfl).symm k) = ix3 ν k d := funext fun a => Fin.ext (by
    match a with
    | ⟨0, _⟩ => exact rhs_mix_0 _ _
    | ⟨1, _⟩ => exact (rhs_mix_1 _ _).trans hk
    | ⟨2, _⟩ => exact rhs_mix_2 _ _)
  rw [el, er]

theorem lhs_out_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_out_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_out_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_out_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- The output projection: entry (ρ, c) is the sum over the 256 attention columns. -/
theorem mm_out (l : FVec Ideal S2048x256 .bf16) (r : FVec Ideal S256x256 .bf16) (ρ : Fin 2048) (c : Fin 256) :
    matmul dot_S2048x256_S256x256_S2048x256_1_0_0_1_n_n none l r (constant S2048x256 .f32 0x00000000#32) (ix2 ρ c) = ∑ k : Fin 256, l (ix2 ρ k) * r (ix2 k c) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 ρ c) ((ValueIdx.contrEquiv1 dot_S2048x256_S256x256_S2048x256_1_0_0_1_n_n 256 rfl rfl).symm k) = ix2 ρ k := funext fun a => Fin.ext (by
    match a with
    | ⟨0, _⟩ => exact lhs_out_0 _ _
    | ⟨1, _⟩ => exact (lhs_out_1 _ _).trans hk)
  have er : dot_S2048x256_S256x256_S2048x256_1_0_0_1_n_n.rhsIdx (ix2 ρ c) ((ValueIdx.contrEquiv1 dot_S2048x256_S256x256_S2048x256_1_0_0_1_n_n 256 rfl rfl).symm k) = ix2 k c := funext fun a => Fin.ext (by
    match a with
    | ⟨0, _⟩ => exact (rhs_out_0 _ _).trans hk
    | ⟨1, _⟩ => exact rhs_out_1 _ _)
  rw [el, er]

end Cert.KernelIdeal.Tile

end
-- ==== Proof.Spec.lean ====
/- The function both programs compute, index by index, over the extended reals.

   For a token r (window n = r / 64, place g = r % 64 inside it) and a column c' (head h = c' / 32, d = c' % 32):
   the projections Q r j = ∑ k, x r k · w j k (j < 256 the queries, 256 ≤ j < 512 the keys, 512 ≤ j the values);
   the scaled energies of g against the window's 64 keys; their softmax (the row maximum taken from -∞, the
   exponentials of the differences, divided by their sum); the softmax-weighted sum of the window's values; and
   finally the output projection ∑ c', O r c' · wo c c' + b c. -/
import Idealize.ShloMosaic.PureOps.Ideal
import Idealize.ShloMosaic.PureOps.Ideal.Laws
import Idealize.ShloMosaic.Lib.ValueIdx

noncomputable section

namespace Cert.Attn

open Idealize.ShloMosaic

/-- The value the row maximum starts from: -∞. -/
def negInf : EReal := Ideal.ofBits .f32 0xFF800000#32

/-- The kernel scales an energy by the literal 1/16. -/
def scK (e : EReal) : EReal := e * Ideal.ofBits .f32 0x3D800000#32

/-- The reference divides it by √256. -/
def scR (e : EReal) : EReal := Ideal.div e (Ideal.sqrt (Ideal.ofBits .f32 0x43800000#32))

theorem ofBits_256 : Ideal.ofBits .f32 0x43800000#32 = ((256 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem sqrt_256 : Real.sqrt 256 = 16 := by
  rw [show (256 : ℝ) = 16 ^ 2 by norm_num]; exact Real.sqrt_sq (by norm_num)

/-- √256 = 16 and the literal is 1/16, so dividing by the one is multiplying by the other, on every extended real. -/
theorem scR_eq_scK : scR = scK := by
  funext e
  unfold scR scK
  rw [ofBits_256, ofBits_sixteenth, Ideal.sqrt_coe, if_neg (by norm_num), sqrt_256]
  exact Ideal.div_coe (by norm_num) e

/-! ## One window, one head -/

section Window
variable (sc : EReal → EReal) (q k v : Fin 64 → Fin 32 → EReal)

/-- The scaled energy of query place `g` against key place `kk`. -/
def energy (g kk : Fin 64) : EReal := sc (∑ dd : Fin 32, q g dd * k kk dd)

/-- The largest energy of the row, taken from -∞ (and once more against -∞, as both programs do). -/
def rowmax (g : Fin 64) : EReal := max negInf ((Finset.univ : Finset (Fin 64)).fold max negInf (energy sc q k g))

/-- The exponential of an energy's distance below the row maximum. -/
def pexp (g kk : Fin 64) : EReal := Ideal.exp (energy sc q k g kk - rowmax sc q k g)

/-- The softmax weight. -/
def attn (g kk : Fin 64) : EReal := Ideal.div (pexp sc q k g kk) (∑ k2 : Fin 64, pexp sc q k g k2)

/-- The attention output: the softmax-weighted sum of the window's values. -/
def win (g : Fin 64) (d : Fin 32) : EReal := ∑ kk : Fin 64, attn sc q k g kk * v kk d

end Window

/-! ## The whole array -/

/-- Token `g` of window `n`. -/
abbrev tok (n : Fin 2048) (g : Fin 64) : Fin 131072 := ⟨n.val * 64 + g.val, by have := n.isLt; have := g.isLt; omega⟩

/-- Column `d` of head `h` in third `j` of the projections (0 queries, 1 keys, 2 values). -/
abbrev col (j : Fin 3) (h : Fin 8) (d : Fin 32) : Fin 768 :=
  ⟨j.val * 256 + h.val * 32 + d.val, by have := j.isLt; have := h.isLt; have := d.isLt; omega⟩

/-- The projections. -/
def Qf (x : Fin 131072 → Fin 256 → EReal) (w : Fin 768 → Fin 256 → EReal) (r : Fin 131072) (j : Fin 768) : EReal :=
  ∑ k : Fin 256, x r k * w j k

/-- The attention output of window `n`, head `h`, at place `g` and column `d` of the head. -/
def Of (sc : EReal → EReal) (Q : Fin 131072 → Fin 768 → EReal) (n : Fin 2048) (h : Fin 8) (g : Fin 64) (d : Fin 32) : EReal :=
  win sc (fun g' dd => Q (tok n g') (col 0 h dd)) (fun kk dd => Q (tok n kk) (col 1 h dd))
    (fun kk dd => Q (tok n kk) (col 2 h dd)) g d

/-- The window, place, head and head column of a token and a column. -/
abbrev winOf (r : Fin 131072) : Fin 2048 := ⟨r.val / 64, by have := r.isLt; omega⟩
abbrev placeOf (r : Fin 131072) : Fin 64 := ⟨r.val % 64, by omega⟩
abbrev headOf (c : Fin 256) : Fin 8 := ⟨c.val / 32, by have := c.isLt; omega⟩
abbrev hcolOf (c : Fin 256) : Fin 32 := ⟨c.val % 32, by omega⟩

/-- The result at token `r`, column `c`. -/
def Gf (sc : EReal → EReal) (x : Fin 131072 → Fin 256 → EReal) (w : Fin 768 → Fin 256 → EReal)
    (wo : Fin 256 → Fin 256 → EReal) (b : Fin 256 → EReal) (r : Fin 131072) (c : Fin 256) : EReal :=
  (∑ c' : Fin 256, Of sc (Qf x w) (winOf r) (headOf c') (placeOf r) (hcolOf c') * wo c c') + b c

/-- The result array as one function of the four argument arrays. -/
def G (sc : EReal → EReal) (X : (⟨2, ![131072, 256]⟩ : Shape).Idx → EReal) (W : (⟨2, ![768, 256]⟩ : Shape).Idx → EReal)
    (WO : (⟨2, ![256, 256]⟩ : Shape).Idx → EReal) (B : (⟨1, ![256]⟩ : Shape).Idx → EReal) :
    (⟨2, ![131072, 256]⟩ : Shape).Idx → EReal :=
  fun i => Gf sc (fun r k => X (ValueIdx.ix2 r k)) (fun j k => W (ValueIdx.ix2 j k)) (fun c c' => WO (ValueIdx.ix2 c c'))
    (fun c => B (ValueIdx.ix1 c)) (i 0) (i 1)

end Cert.Attn

end
-- ==== Proof.KHeadIdx.lean ====
/- One head read at an index, at the ideal instance.

   Row ρ = 64 ν + g of a tile is place g of the tile's window ν. At that row and column d of the head, the head's
   output is the attention of window ν: the softmax over the window's 64 keys of the scaled energies of place g,
   weighting the window's values — the function `win` of the head's 32 columns of q, k and v on the window's rows. -/
import proofs.«135834_j56075093017289_1_alg».proof.Proof.KHead
import proofs.«135834_j56075093017289_1_alg».proof.Proof.KDots
import proofs.«135834_j56075093017289_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.Attn

/-- Place `g` of window `ν` of a tile is its row 64 ν + g. -/
abbrev trow (ν : Fin 32) (g : Fin 64) : Fin 2048 := ⟨ν.val * 64 + g.val, by have := ν.isLt; have := g.isLt; omega⟩

/-- Column `dd` of the head whose columns start at `c0`. -/
abbrev ocol (c0 : Nat) (hc : c0 + 32 ≤ 256) (dd : Fin 32) : Fin 256 := ⟨c0 + dd.val, by have := dd.isLt; omega⟩

/-- The head's columns re-laid by windows: entry (ν, g, dd) is row 64 ν + g, column c0 + dd. -/
theorem cutV_apply (c0 : Nat) (hc : c0 + 32 ≤ 256) (hs : S2048x256.Slices ![0, c0] S2048x32) (x : FVec Ideal S2048x256 .f32)
    (ν : Fin 32) (g : Fin 64) (dd : Fin 32) :
    cutV (F := Ideal) ![0, c0] hs x (ix3 ν g dd) = x (ix2 (trow ν g) (ocol c0 hc dd)) := by
  unfold cutV
  show shapeCast S32x64x32 (extractStridedSlice S2048x32 ![0, c0] x hs) shapeCasts_S2048x32_S32x64x32 (ix3 ν g dd) = _
  rw [shapeCast_apply _ shapeCasts_S2048x32_S32x64x32 (ix3 ν g dd) (ix2 (trow ν g) dd) (by
    rewrite [Shape.rowMajor_val_two, Shape.rowMajor_val_three]; rfl)]
  exact extractStridedSlice_apply ![0, c0] x hs (ix2 (trow ν g) dd) (ix2 (trow ν g) (ocol c0 hc dd)) (fun a => match a with
    | ⟨0, _⟩ => by show ν.val * 64 + g.val = 0 + (ν.val * 64 + g.val); omega
    | ⟨1, _⟩ => by show c0 + dd.val = c0 + dd.val; rfl)

/-- The scaled energy of place g against key place kk in window ν. -/
theorem energyV_apply (qh kh : FVec Ideal S32x64x32 .bf16) (ν : Fin 32) (g kk : Fin 64) :
    energyV (F := Ideal) qh kh (ix3 ν g kk) = scK (∑ dd : Fin 32, qh (ix3 ν g dd) * kh (ix3 ν kk dd)) := by
  unfold energyV scK
  rw [mulf_apply, mm_energy, broadcast_apply]
  rfl

/-- The row maximum: the largest of the row's 64 energies, from -∞. -/
theorem maxV_apply (e : FVec Ideal S32x64x64 .f32) (ν : Fin 32) (g : Fin 64) :
    maxV (F := Ideal) e (ix2 ν g) = max negInf ((Finset.univ : Finset (Fin 64)).fold max negInf fun kk => e (ix3 ν g kk)) := by
  unfold maxV negInf
  rw [maximumf_apply, broadcast_apply]
  refine congrArg₂ max rfl ?_
  refine (Ideal.multiReduction_maximumf_single e 0xFF800000#32 reduces_S32x64x64_S32x64 (.inl rfl) rfl (ix2 ν g)).trans ?_
  show (Finset.univ : Finset (Fin 64)).fold max (Ideal.ofBits .f32 0xFF800000#32) (fun kk => e (reduces_S32x64x64_S32x64.lift (ix2 ν g) kk)) = _
  exact congrArg (fun f => (Finset.univ : Finset (Fin 64)).fold max (Ideal.ofBits .f32 0xFF800000#32) f)
    (funext fun kk => congrArg e (funext fun a => Fin.ext (by
      match a with
      | ⟨0, _⟩ => rfl
      | ⟨1, _⟩ => rfl
      | ⟨2, _⟩ => rfl)))

/-- The exponential of an energy's distance below its row's maximum. -/
theorem expV_apply (e : FVec Ideal S32x64x64 .f32) (ν : Fin 32) (g kk : Fin 64) :
    expV (F := Ideal) e (ix3 ν g kk) = Ideal.exp (e (ix3 ν g kk) - maxV (F := Ideal) e (ix2 ν g)) := by
  unfold expV
  show Ideal.exp (subf e (broadcastTo S32x64x64 (shapeCast S32x64x1 (maxV e) shapeCasts_S32x64_S32x64x1) broadcasts_S32x64x1_S32x64x64) (ix3 ν g kk)) = _
  rw [subf_apply]
  rw [broadcastTo_apply _ broadcasts_S32x64x1_S32x64x64 (ix3 ν g kk) (ix3 ν g (0 : Fin 1)) (fun a => match a with
    | ⟨0, _⟩ => rfl
    | ⟨1, _⟩ => rfl
    | ⟨2, _⟩ => rfl)]
  rw [shapeCast_apply _ shapeCasts_S32x64_S32x64x1 (ix3 ν g (0 : Fin 1)) (ix2 ν g) (by
    rewrite [Shape.rowMajor_val_two, Shape.rowMajor_val_three]; show ν.val * 64 + g.val = (ν.val * 64 + g.val) * 1 + 0; omega)]

/-- The softmax weight: the exponential over the sum of the row's 64 exponentials. -/
theorem softV_apply (e : FVec Ideal S32x64x64 .f32) (ν : Fin 32) (g kk : Fin 64) :
    softV (F := Ideal) e (ix3 ν g kk) = Ideal.div (expV (F := Ideal) e (ix3 ν g kk)) (∑ k2 : Fin 64, expV (F := Ideal) e (ix3 ν g k2)) := by
  unfold softV
  show divf (expV e) (broadcastTo S32x64x64 (shapeCast S32x64x1
    (multiReduction .add [2] S32x64 (expV e) 0x00000000#32 reduces_S32x64x64_S32x64 (.inl rfl) rfl)
    shapeCasts_S32x64_S32x64x1) broadcasts_S32x64x1_S32x64x64) (ix3 ν g kk) = _
  rw [divf_apply]
  rw [broadcastTo_apply _ broadcasts_S32x64x1_S32x64x64 (ix3 ν g kk) (ix3 ν g (0 : Fin 1)) (fun a => match a with
    | ⟨0, _⟩ => rfl
    | ⟨1, _⟩ => rfl
    | ⟨2, _⟩ => rfl)]
  rw [shapeCast_apply _ shapeCasts_S32x64_S32x64x1 (ix3 ν g (0 : Fin 1)) (ix2 ν g) (by
    rewrite [Shape.rowMajor_val_two, Shape.rowMajor_val_three]; show ν.val * 64 + g.val = (ν.val * 64 + g.val) * 1 + 0; omega)]
  refine congrArg (Ideal.div _) ?_
  refine (Ideal.multiReduction_add_single (expV e) 0x00000000#32 reduces_S32x64x64_S32x64 (.inl rfl) rfl (ix2 ν g)).trans ?_
  show (∑ k2 : Fin 64, expV e (reduces_S32x64x64_S32x64.lift (ix2 ν g) k2)) = _
  exact Finset.sum_congr rfl fun k2 _ => congrArg (expV e) (funext fun a => Fin.ext (by
    match a with
    | ⟨0, _⟩ => rfl
    | ⟨1, _⟩ => rfl
    | ⟨2, _⟩ => rfl))

/-- The weighted sum of the window's values, back at the tile's row 64 ν + g. -/
theorem mixV_apply (a : FVec Ideal S32x64x64 .bf16) (vh : FVec Ideal S32x64x32 .bf16) (ν : Fin 32) (g : Fin 64) (d : Fin 32) :
    mixV (F := Ideal) a vh (ix2 (trow ν g) d) = ∑ kk : Fin 64, a (ix3 ν g kk) * vh (ix3 ν kk d) := by
  unfold mixV
  rw [shapeCast_apply _ shapeCasts_S32x64x32_S2048x32 (ix2 (trow ν g) d) (ix3 ν g d) (by
    rewrite [Shape.rowMajor_val_three, Shape.rowMajor_val_two]; rfl)]
  exact mm_mix a vh ν g d

/-- One head at row 64 ν + g, column d: the attention of window ν over the head's columns of q, k, v. -/
theorem headV_apply (c0 : Nat) (hc : c0 + 32 ≤ 256) (hs : S2048x256.Slices ![0, c0] S2048x32) (q k v : FVec Ideal S2048x256 .f32)
    (ν : Fin 32) (g : Fin 64) (d : Fin 32) :
    headV (F := Ideal) ![0, c0] hs q k v (ix2 (trow ν g) d)
      = win scK (fun g' dd => q (ix2 (trow ν g') (ocol c0 hc dd))) (fun kk dd => k (ix2 (trow ν kk) (ocol c0 hc dd)))
          (fun kk dd => v (ix2 (trow ν kk) (ocol c0 hc dd))) g d := by
  unfold headV win attn pexp rowmax energy
  rw [mixV_apply]
  simp only [softV_apply, expV_apply, maxV_apply, energyV_apply, cutV_apply c0 hc hs]

end Cert.KernelIdeal.Tile

end
-- ==== Proof.KTile.lean ====
/- One grid point's stored value read at an index, at the ideal instance.

   At row 64 ν + g and column c of the tile: the sum over the 256 attention columns c' — head c' / 32, column c' % 32
   of that head, the attention of window ν over the tile's projections — times the output weights, plus the bias. -/
import proofs.«135834_j56075093017289_1_alg».proof.Proof.KHeadIdx

noncomputable section

namespace Cert.KernelIdeal.Tile

open Cert.KernelIdeal Cert.KernelIdeal.Gen Idealize.ShloMosaic Idealize.ShloMosaic.ValueIdx Cert.Attn

/-- The tile's projections: row ρ of the tile against column j of the (transposed) weights. -/
def Qt (x0 : FVec Ideal S2048x256 .f32) (x1 : FVec Ideal S256x768 .bf16) (ρ : Fin 2048) (j : Fin 768) : EReal :=
  ∑ k : Fin 256, x0 (ix2 ρ k) * x1 (ix2 k j)

theorem pay2_apply (x0 : FVec Ideal S2048x256 .f32) (x1 : Vec Ideal S256x768 .bf16) (ρ : Fin 2048) (j : Fin 768) :
    k0_pay2 (F := Ideal) x0 x1 (ix2 ρ j) = Qt x0 x1 ρ j := by
  unfold k0_pay2 Qt
  show matmul dot_S2048x256_S256x768_S2048x768_1_0_0_1_n_n none (truncf .bf16 x0 bitsLt_bf16_f32)
    (shapeCast S256x768 x1 shapeCasts_S256x768_S256x768) (constant S2048x768 .f32 0x00000000#32) (ix2 ρ j) = _
  rw [mm_qkv, shapeCast_self]
  rfl

/-- Column `dd` of head `h` among the 256 columns. -/
abbrev hcol8 (h : Fin 8) (dd : Fin 32) : Fin 256 := ⟨h.val * 32 + dd.val, by have := h.isLt; have := dd.isLt; omega⟩

/-- The queries, keys and values are the three thirds of the projections' columns: head h's column dd of each. -/
theorem pay3_apply (x0 : FVec Ideal S2048x256 .f32) (x1 : Vec Ideal S256x768 .bf16) (ρ : Fin 2048) (h : Fin 8) (dd : Fin 32) :
    k0_pay3 (F := Ideal) x0 x1 (ix2 ρ (hcol8 h dd)) = Qt x0 x1 ρ (col 0 h dd) := by
  unfold k0_pay3
  show extractStridedSlice S2048x256 ![0, 0] (k0_pay2 (F := Ideal) x0 x1) slices_S2048x768_o0_0_S2048x256 (ix2 ρ (hcol8 h dd)) = _
  rw [extractStridedSlice_apply ![0, 0] _ slices_S2048x768_o0_0_S2048x256 (ix2 ρ (hcol8 h dd)) (ix2 ρ (col 0 h dd)) (fun a => match a with
    | ⟨0, _⟩ => by show ρ.val = 0 + ρ.val; omega
    | ⟨1, _⟩ => by show 0 * 256 + h.val * 32 + dd.val = 0 + (h.val * 32 + dd.val); omega)]
  exact pay2_apply x0 x1 ρ _

theorem pay4_apply (x0 : FVec Ideal S2048x256 .f32) (x1 : Vec Ideal S256x768 .bf16) (ρ : Fin 2048) (h : Fin 8) (dd : Fin 32) :
    k0_pay4 (F := Ideal) x0 x1 (ix2 ρ (hcol8 h dd)) = Qt x0 x1 ρ (col 1 h dd) := by
  unfold k0_pay4
  show extractStridedSlice S2048x256 ![0, 256] (k0_pay2 (F := Ideal) x0 x1) slices_S2048x768_o0_256_S2048x256 (ix2 ρ (hcol8 h dd)) = _
  rw [extractStridedSlice_apply ![0, 256] _ slices_S2048x768_o0_256_S2048x256 (ix2 ρ (hcol8 h dd)) (ix2 ρ (col 1 h dd)) (fun a => match a with
    | ⟨0, _⟩ => by show ρ.val = 0 + ρ.val; omega
    | ⟨1, _⟩ => by show 1 * 256 + h.val * 32 + dd.val = 256 + (h.val * 32 + dd.val); omega)]
  exact pay2_apply x0 x1 ρ _

theorem pay5_apply (x0 : FVec Ideal S2048x256 .f32) (x1 : Vec Ideal S256x768 .bf16) (ρ : Fin 2048) (h : Fin 8) (dd : Fin 32) :
    k0_pay5 (F := Ideal) x0 x1 (ix2 ρ (hcol8 h dd)) = Qt x0 x1 ρ (col 2 h dd) := by
  unfold k0_pay5
  show extractStridedSlice S2048x256 ![0, 512] (k0_pay2 (F := Ideal) x0 x1) slices_S2048x768_o0_512_S2048x256 (ix2 ρ (hcol8 h dd)) = _
  rw [extractStridedSlice_apply ![0, 512] _ slices_S2048x768_o0_512_S2048x256 (ix2 ρ (hcol8 h dd)) (ix2 ρ (col 2 h dd)) (fun a => match a with
    | ⟨0, _⟩ => by show ρ.val = 0 + ρ.val; omega
    | ⟨1, _⟩ => by show 2 * 256 + h.val * 32 + dd.val = 512 + (h.val * 32 + dd.val); omega)]
  exact pay2_apply x0 x1 ρ _

/-- Head h at row 64 ν + g, column d: the attention of window ν over head h's columns of q, k, v. -/
theorem headK_apply (q k v : FVec Ideal S2048x256 .f32) (h : Fin 8) (ν : Fin 32) (g : Fin 64) (d : Fin 32) :
    headK (F := Ideal) q k v h (ix2 (trow ν g) d)
      = win scK (fun g' dd => q (ix2 (trow ν g') (hcol8 h dd))) (fun kk dd => k (ix2 (trow ν kk) (hcol8 h dd)))
          (fun kk dd => v (ix2 (trow ν kk) (hcol8 h dd))) g d := by
  match h with
  | ⟨0, _⟩ => exact headV_apply 0 (by omega) slices_S2048x256_o0_0_S2048x32 q k v ν g d
  | ⟨1, _⟩ => exact headV_apply 32 (by omega) slices_S2048x256_o0_32_S2048x32 q k v ν g d
  | ⟨2, _⟩ => exact headV_apply 64 (by omega) slices_S2048x256_o0_64_S2048x32 q k v ν g d
  | ⟨3, _⟩ => exact headV_apply 96 (by omega) slices_S2048x256_o0_96_S2048x32 q k v ν g d
  | ⟨4, _⟩ => exact headV_apply 128 (by omega) slices_S2048x256_o0_128_S2048x32 q k v ν g d
  | ⟨5, _⟩ => exact headV_apply 160 (by omega) slices_S2048x256_o0_160_S2048x32 q k v ν g d
  | ⟨6, _⟩ => exact headV_apply 192 (by omega) slices_S2048x256_o0_192_S2048x32 q k v ν g d
  | ⟨7, _⟩ => exact headV_apply 224 (by omega) slices_S2048x256_o0_224_S2048x32 q k v ν g d

/-- Eight [2048, 32] pieces side by side: column c lies in piece c / 32, at its column c % 32. -/
theorem cat_apply {α : Type} (f : Fin 8 → S2048x32.Idx → α)
    (hcat : Shape.Concatenates [S2048x32, S2048x32, S2048x32, S2048x32, S2048x32, S2048x32, S2048x32, S2048x32] S2048x256 1)
    (ρ : Fin 2048) (c : Fin 256) :
    concatenate S2048x256 1 [⟨S2048x32, f 0⟩, ⟨S2048x32, f 1⟩, ⟨S2048x32, f 2⟩, ⟨S2048x32, f 3⟩, ⟨S2048x32, f 4⟩, ⟨S2048x32, f 5⟩, ⟨S2048x32, f 6⟩, ⟨S2048x32, f 7⟩] hcat (ix2 ρ c)
      = f (headOf c) (ix2 ρ (hcolOf c)) :=
  concatenate_ofFn_apply (t := S2048x256) (s₁ := S2048x32) 1 f hcat rfl 32 rfl (ix2 ρ c) (headOf c) rfl (ix2 ρ (hcolOf c)) rfl
    (fun b hb => match b with
      | ⟨0, _⟩ => rfl
      | ⟨1, _⟩ => absurd rfl hb)

/-- The heads side by side under the output projection, plus the bias row, at an index. -/
theorem finalV_apply (hd : Fin 8 → FVec Ideal S2048x32 .f32) (x2 : FVec Ideal S256x256 .bf16) (x3 : FVec Ideal S1x256 .f32)
    (ρ : Fin 2048) (c : Fin 256) :
    finalV (F := Ideal) hd x2 x3 (ix2 ρ c)
      = (∑ c' : Fin 256, hd (headOf c') (ix2 ρ (hcolOf c')) * x2 (ix2 c' c)) + x3 (ix2 (0 : Fin 1) c) := by
  unfold finalV
  rw [addf_apply, mm_out]
  rw [broadcastTo_apply _ broadcasts_S1x256_S2048x256 (ix2 ρ c) (ix2 (0 : Fin 1) c) (fun a => match a with
    | ⟨0, _⟩ => rfl
    | ⟨1, _⟩ => rfl), shapeCast_self, shapeCast_self]
  refine congrArg (· + _) (Finset.sum_congr rfl fun c' _ => ?_)
  refine congrArg (· * _) ?_
  exact cat_apply hd concatenates_S2048x32_S2048x32_S2048x32_S2048x32_S2048x32_S2048x32_S2048x32_S2048x32_S2048x256_d1 ρ c'

/-- The stored value at row 64 ν + g, column c. -/
theorem tileV_apply (x0 : FVec Ideal S2048x256 .f32) (x1 : Vec Ideal S256x768 .bf16) (x2 : FVec Ideal S256x256 .bf16)
    (x3 : FVec Ideal S1x256 .f32) (ν : Fin 32) (g : Fin 64) (c : Fin 256) :
    tileV (F := Ideal) x0 x1 x2 x3 (ix2 (trow ν g) c)
      = (∑ c' : Fin 256,
          win scK (fun g' dd => Qt x0 x1 (trow ν g') (col 0 (headOf c') dd)) (fun kk dd => Qt x0 x1 (trow ν kk) (col 1 (headOf c') dd))
            (fun kk dd => Qt x0 x1 (trow ν kk) (col 2 (headOf c') dd)) g (hcolOf c') * x2 (ix2 c' c))
        + x3 (ix2 (0 : Fin 1) c) := by
  unfold tileV
  rw [finalV_apply]
  refine congrArg (· + _) (Finset.sum_congr rfl fun c' _ => ?_)
  refine congrArg (· * _) ?_
  rw [headK_apply]
  simp only [pay3_apply, pay4_apply, pay5_apply]

end Cert.KernelIdeal.Tile

end
-- ==== Proof.KBlocksA.lean ====
/- The kernel's blocks in memory.

   Grid point t stages rows 2048 t … 2048 t + 2047 of x (all 256 columns) and writes back the same rows of the result;
   the three weight windows hold their whole arrays at every point. Before the region the host transposes the two weight
   matrices and lays the bias out as one row, so the staged weights read transposed. The 64 output blocks tile the
   result array: row r lies in the block of point r / 2048. -/
import proofs.«135834_j56075093017289_1_alg».proof.Proof.KTile
import proofs.«135834_j56075093017289_1_alg».proof.Proof.Gen.KernelIdeal.Value
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Tile Idealize.ShloMosaic Idealize.ShloMosaic.TcCoe Idealize.SL.Sem
open Idealize.ShloMosaic.ValueIdx Idealize.ShloMosaic.StableHlo Cert.Attn
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided over the 64 grid points: x and the result move one block of rows per point,
    the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point as a tile number below 64. -/
abbrev tileOf (t : Fin cfg0.N) : Fin 64 := ⟨t.val, lt_of_lt_of_eq t.isLt N_0⟩

/-! ## The staged weights, as the host left them -/

/-- The projection weights as the region finds them: the transpose of w_qkv. -/
theorem V1_apply (c : Dev nD) (k : Fin 256) (j : Fin 768) :
    (V m c main_v1 : S256x768.Idx → EReal) (ix2 k j) = m ((c : Thread nD τ).loc main_arg1) (ix2 j k) := by
  have e : (V m c main_v1 : S256x768.Idx → EReal)
      = (truncf (F := Ideal) .bf16 (transpose S256x768 [1, 0] (m ((c : Thread nD τ).loc main_arg1)) transposes_S768x256_S256x768_1_0) bitsLt_bf16_f32 : S256x768.Idx → EReal) := by
    dsimp only [Gen.V, Gen.hostOps0]; after_results
  rw [e]
  show transpose S256x768 [1, 0] (m ((c : Thread nD τ).loc main_arg1)) transposes_S768x256_S256x768_1_0 (ix2 k j) = _
  exact transpose_apply [1, 0] _ transposes_S768x256_S256x768_1_0 (ix2 k j) (ix2 j k) (fun b => match b with
    | ⟨0, _⟩ => rfl
    | ⟨1, _⟩ => rfl)

/-- The output weights as the region finds them: the transpose of w_out. -/
theorem V3_apply (c : Dev nD) (c' cc : Fin 256) :
    (V m c main_v3 : S256x256.Idx → EReal) (ix2 c' cc) = m ((c : Thread nD τ).loc main_arg2) (ix2 cc c') := by
  have e : (V m c main_v3 : S256x256.Idx → EReal)
      = (truncf (F := Ideal) .bf16 (transpose S256x256 [1, 0] (m ((c : Thread nD τ).loc main_arg2)) transposes_S256x256_S256x256_1_0) bitsLt_bf16_f32 : S256x256.Idx → EReal) := by
    dsimp only [Gen.V, Gen.hostOps0]; after_results
  rw [e]
  show transpose S256x256 [1, 0] (m ((c : Thread nD τ).loc main_arg2)) transposes_S256x256_S256x256_1_0 (ix2 c' cc) = _
  exact transpose_apply [1, 0] _ transposes_S256x256_S256x256_1_0 (ix2 c' cc) (ix2 cc c') (fun b => match b with
    | ⟨0, _⟩ => rfl
    | ⟨1, _⟩ => rfl)

/-- The bias as the region finds it: one row. -/
theorem V4_apply (c : Dev nD) (cc : Fin 256) :
    (V m c main_v4 : S1x256.Idx → EReal) (ix2 (0 : Fin 1) cc) = m ((c : Thread nD τ).loc main_arg3) (ix1 cc) := by
  have e : (V m c main_v4 : S1x256.Idx → EReal) = shapeCast S1x256 (m ((c : Thread nD τ).loc main_arg3)) shapeCasts_S256_S1x256 := by
    dsimp only [Gen.V, Gen.hostOps0]; after_results; rfl
  rw [e]
  exact shapeCast_apply _ shapeCasts_S256_S1x256 (ix2 (0 : Fin 1) cc) (ix1 cc) (by
    rewrite [Shape.rowMajor_val_one, Shape.rowMajor_val_two]; show cc.val = 0 * 256 + cc.val; omega)

/-! ## The four input blocks at a point -/

/-- Row ρ of the x block at point t is row 2048 t + ρ of x. -/
theorem blk0_apply (c : Dev nD) (t : Fin cfg0.N) (ρ : Fin 2048) (k : Fin 256) :
    iblk m c 0 t (ix2 ρ k) = m ((c : Thread nD τ).loc main_arg0) (ix2 (⟨(tileOf t).val * 2048 + ρ.val, by have := (tileOf t).isLt; have := ρ.isLt; omega⟩ : Fin 131072) k) := by
  obtain ⟨e00, e01, -⟩ := idx_facts t
  show V m c main_arg0 (((cfg0.win 0).blk t).view.emb (ix2 ρ k)) = _
  rw [V_main_arg0]
  refine congrArg _ (funext fun a => Fin.ext ?_)
  match a with
  | ⟨0, _⟩ => show win0_0.index t (0 : Fin 2) * 2048 + 1 * ρ.val = t.val * 2048 + ρ.val; rw [e00]; omega
  | ⟨1, _⟩ => show win0_0.index t (1 : Fin 2) * 256 + 1 * k.val = k.val; rw [e01]; omega

/-- The projection-weight block is the whole transposed matrix. -/
theorem blk1_apply (c : Dev nD) (t : Fin cfg0.N) (k : Fin 256) (j : Fin 768) :
    iblk m c 1 t (ix2 k j) = m ((c : Thread nD τ).loc main_arg1) (ix2 j k) := by
  obtain ⟨-, -, e10, e11, -⟩ := idx_facts t
  show V m c main_v1 (((cfg0.win 1).blk t).view.emb (ix2 k j)) = _
  rw [← V1_apply m c k j]
  refine congrArg _ (funext fun a => Fin.ext ?_)
  match a with
  | ⟨0, _⟩ => show win0_1.index t (0 : Fin 2) * 256 + 1 * k.val = k.val; rw [e10]; omega
  | ⟨1, _⟩ => show win0_1.index t (1 : Fin 2) * 768 + 1 * j.val = j.val; rw [e11]; omega

/-- The output-weight block is the whole transposed matrix. -/
theorem blk2_apply (c : Dev nD) (t : Fin cfg0.N) (c' cc : Fin 256) :
    iblk m c 2 t (ix2 c' cc) = m ((c : Thread nD τ).loc main_arg2) (ix2 cc c') := by
  obtain ⟨-, -, -, -, e20, e21, -⟩ := idx_facts t
  show V m c main_v3 (((cfg0.win 2).blk t).view.emb (ix2 c' cc)) = _
  rw [← V3_apply m c c' cc]
  refine congrArg _ (funext fun a => Fin.ext ?_)
  match a with
  | ⟨0, _⟩ => show win0_2.index t (0 : Fin 2) * 256 + 1 * c'.val = c'.val; rw [e20]; omega
  | ⟨1, _⟩ => show win0_2.index t (1 : Fin 2) * 256 + 1 * cc.val = cc.val; rw [e21]; omega

/-- The bias block is the whole row. -/
theorem blk3_apply (c : Dev nD) (t : Fin cfg0.N) (cc : Fin 256) :
    iblk m c 3 t (ix2 (0 : Fin 1) cc) = m ((c : Thread nD τ).loc main_arg3) (ix1 cc) := by
  obtain ⟨-, -, -, -, -, -, e30, e31, -⟩ := idx_facts t
  show V m c main_v4 (((cfg0.win 3).blk t).view.emb (ix2 (0 : Fin 1) cc)) = _
  rw [← V4_apply m c cc]
  refine congrArg _ (funext fun a => Fin.ext ?_)
  match a with
  | ⟨0, _⟩ => show win0_3.index t (0 : Fin 2) * 1 + 1 * 0 = 0; rw [e30]
  | ⟨1, _⟩ => show win0_3.index t (1 : Fin 2) * 256 + 1 * cc.val = cc.val; rw [e31]; omega

/-! ## The output blocks tile the result -/

/-- An index of the result is in point t's block iff each coordinate is in the block's range on its axis. -/
theorem mem_blk (t : Fin cfg0.N) (i : S131072x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v5).slice (win0_4.rect t)).set ↔ _
  rw [View.set_slice_whole, Rect.mem_set_unit]
  exact Iff.rfl

/-- Row r of the result lies in the block of point r / 2048. -/
theorem cover (i : S131072x256.Idx) : ∃ t : Fin cfg0.N, (cfg0.win 4).flush t = true ∧ i ∈ ((cfg0.win 4).blk t).view.set := by
  have hi0 : (i 0).val < 131072 := (i 0).isLt
  have hi1 : (i 1).val < 256 := (i 1).isLt
  have hN : cfg0.N = 64 := N_0
  have ht : (i 0).val / 2048 < cfg0.N := by rw [hN]; omega
  obtain ⟨-, -, -, -, -, -, -, -, e40, e41⟩ := idx_facts ⟨(i 0).val / 2048, ht⟩
  refine ⟨⟨(i 0).val / 2048, ht⟩, flush0_4 _, ?_⟩
  rw [mem_blk]
  intro a
  match a with
  | ⟨0, _⟩ =>
    show win0_4.index ⟨(i 0).val / 2048, ht⟩ (0 : Fin 2) * 2048 ≤ (i 0).val ∧ (i 0).val < win0_4.index ⟨(i 0).val / 2048, ht⟩ (0 : Fin 2) * 2048 + 2048
    rw [e40]; show (i 0).val / 2048 * 2048 ≤ (i 0).val ∧ (i 0).val < (i 0).val / 2048 * 2048 + 2048; omega
  | ⟨1, _⟩ =>
    show win0_4.index ⟨(i 0).val / 2048, ht⟩ (1 : Fin 2) * 256 ≤ (i 1).val ∧ (i 1).val < win0_4.index ⟨(i 0).val / 2048, ht⟩ (1 : Fin 2) * 256 + 256
    rw [e41]; omega

end Cert.KernelIdeal.Blocks

end
-- ==== Proof.KTileG.lean ====
/- One tile's stored value is the specification function G, at the literal scaling, on that tile's rows.

   Tile T holds rows 2048 T + ρ of the whole array.  Row 64 ν + g of the tile is row 64 (32 T + ν) + g of the
   array: place g of window 32 T + ν.  The tile's projections are the array's projections at those rows, so the
   window's attention computed from the tile is the array's, and the output projection and the bias agree entry
   by entry. -/
import proofs.«135834_j56075093017289_1_alg».proof.Proof.KTile

noncomputable section

namespace Cert.KernelIdeal.Tile

open Cert.KernelIdeal Cert.KernelIdeal.Gen Idealize.ShloMosaic Idealize.ShloMosaic.ValueIdx Cert.Attn

/-- Row ρ of tile T among the 131072 tokens. -/
abbrev grow (T : Fin 64) (ρ : Fin 2048) : Fin 131072 := ⟨T.val * 2048 + ρ.val, by have := T.isLt; have := ρ.isLt; omega⟩

/-- Window ν of tile T among the 2048 windows: 32 T + ν. -/
abbrev tg_win (T : Fin 64) (ν : Fin 32) : Fin 2048 := ⟨T.val * 32 + ν.val, by have := T.isLt; have := ν.isLt; omega⟩

/-- Row 64 ν + g of tile T is place g of window 32 T + ν. -/
theorem tg_row (T : Fin 64) (ν : Fin 32) (g : Fin 64) : grow T (trow ν g) = tok (tg_win T ν) g :=
  Fin.ext (by show T.val * 2048 + (ν.val * 64 + g.val) = (T.val * 32 + ν.val) * 64 + g.val; omega)

theorem tg_winOf (T : Fin 64) (ν : Fin 32) (g : Fin 64) : winOf (grow T (trow ν g)) = tg_win T ν :=
  Fin.ext (by have := g.isLt; show (T.val * 2048 + (ν.val * 64 + g.val)) / 64 = T.val * 32 + ν.val; omega)

theorem tg_placeOf (T : Fin 64) (ν : Fin 32) (g : Fin 64) : placeOf (grow T (trow ν g)) = g :=
  Fin.ext (by have := g.isLt; show (T.val * 2048 + (ν.val * 64 + g.val)) % 64 = g.val; omega)

/-- The tile's projections are the array's projections at the tile's rows. -/
theorem tg_Qt (X : S131072x256.Idx → EReal) (W : S768x256.Idx → EReal) (T : Fin 64)
    (x0 : FVec Ideal S2048x256 .f32) (x1 : Vec Ideal S256x768 .bf16)
    (h0 : ∀ (ρ : Fin 2048) (k : Fin 256), x0 (ix2 ρ k) = X (ix2 (grow T ρ) k))
    (h1 : ∀ (k : Fin 256) (j : Fin 768), x1 (ix2 k j) = W (ix2 j k))
    (ν : Fin 32) (g' : Fin 64) (j : Fin 768) :
    Qt x0 x1 (trow ν g') j = Qf (fun r k => X (ix2 r k)) (fun j k => W (ix2 j k)) (tok (tg_win T ν) g') j := by
  unfold Qt Qf
  refine Finset.sum_congr rfl fun k _ => ?_
  rw [h0, h1, tg_row]

theorem tile_eq_G (X : S131072x256.Idx → EReal) (W : S768x256.Idx → EReal) (WO : S256x256.Idx → EReal) (B : S256.Idx → EReal) (T : Fin 64)
    (x0 : FVec Ideal S2048x256 .f32) (x1 : Vec Ideal S256x768 .bf16) (x2 : FVec Ideal S256x256 .bf16) (x3 : FVec Ideal S1x256 .f32)
    (h0 : ∀ (ρ : Fin 2048) (k : Fin 256), x0 (ix2 ρ k) = X (ix2 (grow T ρ) k))
    (h1 : ∀ (k : Fin 256) (j : Fin 768), x1 (ix2 k j) = W (ix2 j k))
    (h2 : ∀ (c' c : Fin 256), x2 (ix2 c' c) = WO (ix2 c c'))
    (h3 : ∀ c : Fin 256, x3 (ix2 (0 : Fin 1) c) = B (ix1 c))
    (ρ : Fin 2048) (c : Fin 256) :
    tileV (F := Ideal) x0 x1 x2 x3 (ix2 ρ c) = Cert.Attn.G scK X W WO B (ix2 (grow T ρ) c) := by
  obtain ⟨ν, g, rfl⟩ : ∃ (ν : Fin 32) (g : Fin 64), ρ = trow ν g :=
    ⟨⟨ρ.val / 64, by have := ρ.isLt; omega⟩, ⟨ρ.val % 64, by omega⟩,
      Fin.ext (by show ρ.val = ρ.val / 64 * 64 + ρ.val % 64; omega)⟩
  rw [tileV_apply]
  show _ = Gf scK (fun r k => X (ix2 r k)) (fun j k => W (ix2 j k)) (fun c c' => WO (ix2 c c')) (fun c => B (ix1 c))
    (grow T (trow ν g)) c
  unfold Gf Of
  rw [tg_winOf, tg_placeOf, h3]
  refine congrArg (· + B (ix1 c)) (Finset.sum_congr rfl fun c' _ => ?_)
  rw [h2]
  refine congrArg (· * WO (ix2 c c')) ?_
  simp only [tg_Qt X W T x0 x1 h0 h1]

end Cert.KernelIdeal.Tile

end
-- ==== Proof.KBlocks.lean ====
/- The kernel's result array after the run is the function `G` of the four argument arrays.

   What point t writes back is its tile's stored value, which is `G` on the tile's rows; the 64 blocks tile the
   array, so the array ends holding `G`. -/
import proofs.«135834_j56075093017289_1_alg».proof.Proof.KBlocksA
import proofs.«135834_j56075093017289_1_alg».proof.Proof.KTileG

set_option maxRecDepth 16384

noncomputable section

namespace Cert.KernelIdeal.Blocks

open Cert.KernelIdeal Cert.KernelIdeal.Gen Cert.KernelIdeal.Tile Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The result as one function of the argument arrays as launched. -/
def result (c : Dev nD) : S131072x256.Idx → EReal :=
  G scK (m ((c : Thread nD τ).loc main_arg0)) (m ((c : Thread nD τ).loc main_arg1)) (m ((c : Thread nD τ).loc main_arg2))
    (m ((c : Thread nD τ).loc main_arg3))

/-- The value stored at point t, at row ρ' and column cc of the tile, is `G` at row 2048 t + ρ'. -/
theorem tile_at (c : Dev nD) (t : Fin cfg0.N) (ρ' : Fin 2048) (cc : Fin 256) :
    tileV (F := Ideal) (iblk m c 0 t) (iblk m c 1 t) (iblk m c 2 t) (iblk m c 3 t) (ix2 ρ' cc)
      = result m c (ix2 (grow (tileOf t) ρ') cc) :=
  tile_eq_G (m ((c : Thread nD τ).loc main_arg0)) (m ((c : Thread nD τ).loc main_arg1)) (m ((c : Thread nD τ).loc main_arg2))
    (m ((c : Thread nD τ).loc main_arg3)) (tileOf t) (iblk m c 0 t) (iblk m c 1 t) (iblk m c 2 t) (iblk m c 3 t)
    (fun r k => blk0_apply m c t r k) (fun k j => blk1_apply m c t k j) (fun c' c2 => blk2_apply m c t c' c2)
    (fun c2 => blk3_apply m c t c2) ρ' cc

/-- What point t writes back is block t of `G` of the arguments. -/
theorem flushed_eq (c : Dev nD) (t : Fin cfg0.N) :
    (dats m 0 c).flushed 4 t = ((cfg0.win 4).blk t).view.read (Elt Ideal) (result m c) := by
  rw [Cert.KernelIdeal.Value.flushed4, Tile.out_eq, View.canon_unit_zero hz]
  simp only [View.ld_unit_zero (S := S2048x256) hz, View.ld_unit_zero (S := S256x768) hz,
    View.ld_unit_zero (S := S256x256) hz, View.ld_unit_zero (S := S1x256) hz]
  obtain ⟨-, -, -, -, -, -, -, -, e40, e41⟩ := idx_facts t
  refine funext fun (y : S2048x256.Idx) => ?_
  show tileV (F := Ideal) (iblk m c 0 t) (iblk m c 1 t) (iblk m c 2 t) (iblk m c 3 t) y
    = result m c (((cfg0.win 4).blk t).view.emb y)
  refine (congrArg (tileV (F := Ideal) (iblk m c 0 t) (iblk m c 1 t) (iblk m c 2 t) (iblk m c 3 t)) (eq_ix2 y)).trans
    ((tile_at m c t (y 0) (y 1)).trans (congrArg (result m c) (funext fun a => Fin.ext ?_)))
  match a with
  | ⟨0, _⟩ =>
    show (tileOf t).val * 2048 + (y 0).val = win0_4.index t (0 : Fin 2) * 2048 + 1 * (y 0).val
    rw [e40]; show t.val * 2048 + (y 0).val = t.val * 2048 + 1 * (y 0).val; omega
  | ⟨1, _⟩ =>
    show (y 1).val = win0_4.index t (1 : Fin 2) * 256 + 1 * (y 1).val
    rw [e41]; omega

/-- The result array after the run. -/
theorem final (c : Dev nD) : (dats m 0 c).arrAt 4 cfg0.N = result m c :=
  (dats m 0 c).arrAt_eq_of_cover 4 (result m c) (fun t _ => flushed_eq m c t) cover

/-- The kernel's run: it ends with the result array at `G` of the arguments, and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.RefQ.lean ====
/- The reference program's projections and its rearrangement into windows and heads, read index by index.

   The first stage is the matrix product Q r j = ∑ k, x r k · w j k.  The next stages cut Q into its three
   thirds (queries, keys, values) and rearrange each third, by reshapes and one transposition, into an array
   indexed by (window · 8 + head, place in the window, column of the head).  Following the row-major index
   through the layout stages, one division at a time, shows that entry (8 n + h, g, d) of the j-th rearranged
   third is Q (64 n + g) (256 j + 32 h + d). -/
import proofs.«135834_j56075093017289_1_alg».proof.Proof.Spec
import proofs.«135834_j56075093017289_1_alg».proof.Proof.Gen.ReferenceIdeal.Read
import Idealize.ShloMosaic.Lib.ValueIdx
import Idealize.ShloMosaic.PureOps.Ideal
import Idealize.ShloMosaic.PureOps.Ideal.Laws

noncomputable section

namespace Cert.Attn.Ref

open Cert.ReferenceIdeal Cert.ReferenceIdeal.Gen Cert.ReferenceIdeal.Read Idealize.ShloMosaic Idealize.ShloMosaic.ValueIdx

/-- The window of a batch index 8 n + h. -/
abbrev bwin (bt : Fin 16384) : Fin 2048 := ⟨bt.val / 8, by have := bt.isLt; omega⟩
/-- The head of a batch index 8 n + h. -/
abbrev bhead (bt : Fin 16384) : Fin 8 := ⟨bt.val % 8, by omega⟩
/-- Column d of head h inside one third: 32 h + d. -/
abbrev hc (h : Fin 8) (dd : Fin 32) : Fin 256 := ⟨h.val * 32 + dd.val, by have := h.isLt; have := dd.isLt; omega⟩

/-- The first stage is the projection Q. -/
theorem v1_at (x0 : (⟨S131072x256, .f32⟩ : BufTy).Contents (Elt Ideal)) (x1 : (⟨S768x256, .f32⟩ : BufTy).Contents (Elt Ideal))
    (r : Fin 131072) (j : Fin 768) :
    val_main_v1 (F := Ideal) x0 x1 (ix2 r j) = Qf (fun r k => x0 (ix2 r k)) (fun j k => x1 (ix2 j k)) r j := by
  rw [val_main_v1_apply]
  unfold Qf
  refine Finset.sum_congr rfl fun k _ => ?_
  rw [val_main_v0_apply]
  have e1 : lidx_main_v1 (ix2 r j) k = ix2 r k :=
    funext fun a => Fin.ext (by match a with | ⟨0, _⟩ => rfl | ⟨1, _⟩ => rfl)
  have e2 : idx_main_v0 (ridx_main_v1 (ix2 r j) k) = ix2 j k :=
    funext fun a => Fin.ext (by match a with | ⟨0, _⟩ => rfl | ⟨1, _⟩ => rfl)
  rw [e1, e2]

/-! ## The layout stages, one at a time -/

/-- (8 n + h, g, d) of the batched array comes from (n, g, h, d): the flat position (64 (8 n + h) + g) 32 + d
    splits as ((8 n' + h') 64 + g') 32 + d', and the transposition swaps g' and h'. -/
theorem idxA (bt : Fin 16384) (g : Fin 64) (dd : Fin 32) :
    idx_main_v10 (idx_main_v11 (ix3 bt g dd)) = ix4 (bwin bt) g (bhead bt) dd := by
  have hb := bt.isLt
  have hg := g.isLt
  have hd := dd.isLt
  funext a
  apply Fin.ext
  match a with
  | ⟨0, _⟩ => show ((bt.val * 64 + g.val) * 32 + dd.val) / 16384 = bt.val / 8; omega
  | ⟨1, _⟩ => show ((bt.val * 64 + g.val) * 32 + dd.val) / 32 % 64 = g.val; omega
  | ⟨2, _⟩ => show ((bt.val * 64 + g.val) * 32 + dd.val) / 2048 % 8 = bt.val % 8; omega
  | ⟨3, _⟩ => show ((bt.val * 64 + g.val) * 32 + dd.val) % 32 = dd.val; omega

/-- (n, g, h, d) comes from row 64 n + g, column 32 h + d. -/
theorem idxB (n : Fin 2048) (g : Fin 64) (h : Fin 8) (dd : Fin 32) :
    idx_main_v9 (ix4 n g h dd) = ix2 (tok n g) (hc h dd) := by
  have hn := n.isLt
  have hg := g.isLt
  have hh := h.isLt
  have hd := dd.isLt
  funext a
  apply Fin.ext
  match a with
  | ⟨0, _⟩ => show (((n.val * 64 + g.val) * 8 + h.val) * 32 + dd.val) / 256 = n.val * 64 + g.val; omega
  | ⟨1, _⟩ => show (((n.val * 64 + g.val) * 8 + h.val) * 32 + dd.val) % 256 = h.val * 32 + dd.val; omega

/-- Dropping the unit axis: (r, c) comes from (r, 0, c). -/
theorem idxC (r : Fin 131072) (c : Fin 256) : idx_main_v4 (ix2 r c) = ix3 r (0 : Fin 1) c := by
  have hr := r.isLt
  have hcc := c.isLt
  funext a
  apply Fin.ext
  match a with
  | ⟨0, _⟩ => show (r.val * 256 + c.val) / 256 = r.val; omega
  | ⟨1, _⟩ => rfl
  | ⟨2, _⟩ => show (r.val * 256 + c.val) % 256 = c.val; omega

/-- The slices: (r, 0, c) of the j-th third is (r, j, c). -/
theorem idxD0 (r : Fin 131072) (c : Fin 256) : idx_main_v3 (ix3 r (0 : Fin 1) c) = ix3 r (0 : Fin 3) c :=
  funext fun a => Fin.ext (by match a with | ⟨0, _⟩ => rfl | ⟨1, _⟩ => rfl | ⟨2, _⟩ => rfl)
theorem idxD1 (r : Fin 131072) (c : Fin 256) : idx_main_v5 (ix3 r (0 : Fin 1) c) = ix3 r (1 : Fin 3) c :=
  funext fun a => Fin.ext (by match a with | ⟨0, _⟩ => rfl | ⟨1, _⟩ => rfl | ⟨2, _⟩ => rfl)
theorem idxD2 (r : Fin 131072) (c : Fin 256) : idx_main_v7 (ix3 r (0 : Fin 1) c) = ix3 r (2 : Fin 3) c :=
  funext fun a => Fin.ext (by match a with | ⟨0, _⟩ => rfl | ⟨1, _⟩ => rfl | ⟨2, _⟩ => rfl)

/-- (r, j, 32 h + d) of the three thirds side by side is column 256 j + 32 h + d of row r. -/
theorem idxE (r : Fin 131072) (j : Fin 3) (h : Fin 8) (dd : Fin 32) :
    idx_main_v2 (ix3 r j (hc h dd)) = ix2 r (col j h dd) := by
  have hr := r.isLt
  have hj := j.isLt
  have hh := h.isLt
  have hd := dd.isLt
  funext a
  apply Fin.ext
  match a with
  | ⟨0, _⟩ => show ((r.val * 3 + j.val) * 256 + (h.val * 32 + dd.val)) / 768 = r.val; omega
  | ⟨1, _⟩ => show ((r.val * 3 + j.val) * 256 + (h.val * 32 + dd.val)) % 768 = j.val * 256 + h.val * 32 + dd.val; omega

/-! ## The three rearranged thirds -/

/-- Entry (8 n + h, g, d) of the rearranged queries is Q (64 n + g) (32 h + d). -/
theorem v11_at (x0 : (⟨S131072x256, .f32⟩ : BufTy).Contents (Elt Ideal)) (x1 : (⟨S768x256, .f32⟩ : BufTy).Contents (Elt Ideal))
    (bt : Fin 16384) (g : Fin 64) (dd : Fin 32) :
    val_main_v11 (F := Ideal) x0 x1 (ix3 bt g dd)
      = val_main_v1 (F := Ideal) x0 x1 (ix2 (tok (bwin bt) g) (col 0 (bhead bt) dd)) := by
  rw [val_main_v11_apply, val_main_v10_apply, idxA, val_main_v9_apply, idxB, val_main_v4_apply, idxC, val_main_v3_apply, idxD0,
    val_main_v2_apply, idxE]

/-- The keys and the values are rearranged by the same three layout stages as the queries. -/
theorem idxA1 (bt : Fin 16384) (g : Fin 64) (dd : Fin 32) :
    idx_main_v13 (idx_main_v14 (ix3 bt g dd)) = ix4 (bwin bt) g (bhead bt) dd := idxA bt g dd
theorem idxA2 (bt : Fin 16384) (g : Fin 64) (dd : Fin 32) :
    idx_main_v16 (idx_main_v17 (ix3 bt g dd)) = ix4 (bwin bt) g (bhead bt) dd := idxA bt g dd
theorem idxB1 (n : Fin 2048) (g : Fin 64) (h : Fin 8) (dd : Fin 32) :
    idx_main_v12 (ix4 n g h dd) = ix2 (tok n g) (hc h dd) := idxB n g h dd
theorem idxB2 (n : Fin 2048) (g : Fin 64) (h : Fin 8) (dd : Fin 32) :
    idx_main_v15 (ix4 n g h dd) = ix2 (tok n g) (hc h dd) := idxB n g h dd
theorem idxC1 (r : Fin 131072) (c : Fin 256) : idx_main_v6 (ix2 r c) = ix3 r (0 : Fin 1) c := idxC r c
theorem idxC2 (r : Fin 131072) (c : Fin 256) : idx_main_v8 (ix2 r c) = ix3 r (0 : Fin 1) c := idxC r c

/-- Entry (8 n + h, g, d) of the rearranged keys is Q (64 n + g) (256 + 32 h + d). -/
theorem v14_at (x0 : (⟨S131072x256, .f32⟩ : BufTy).Contents (Elt Ideal)) (x1 : (⟨S768x256, .f32⟩ : BufTy).Contents (Elt Ideal))
    (bt : Fin 16384) (g : Fin 64) (dd : Fin 32) :
    val_main_v14 (F := Ideal) x0 x1 (ix3 bt g dd)
      = val_main_v1 (F := Ideal) x0 x1 (ix2 (tok (bwin bt) g) (col 1 (bhead bt) dd)) := by
  rw [val_main_v14_apply, val_main_v13_apply, idxA1, val_main_v12_apply, idxB1, val_main_v6_apply, idxC1, val_main_v5_apply, idxD1,
    val_main_v2_apply, idxE]

/-- Entry (8 n + h, g, d) of the rearranged values is Q (64 n + g) (512 + 32 h + d). -/
theorem v17_at (x0 : (⟨S131072x256, .f32⟩ : BufTy).Contents (Elt Ideal)) (x1 : (⟨S768x256, .f32⟩ : BufTy).Contents (Elt Ideal))
    (bt : Fin 16384) (g : Fin 64) (dd : Fin 32) :
    val_main_v17 (F := Ideal) x0 x1 (ix3 bt g dd)
      = val_main_v1 (F := Ideal) x0 x1 (ix2 (tok (bwin bt) g) (col 2 (bhead bt) dd)) := by
  rw [val_main_v17_apply, val_main_v16_apply, idxA2, val_main_v15_apply, idxB2, val_main_v8_apply, idxC2, val_main_v7_apply, idxD2,
    val_main_v2_apply, idxE]

/-! ## The same three entries as values of the projection Q -/

theorem v11_Q (x0 : (⟨S131072x256, .f32⟩ : BufTy).Contents (Elt Ideal)) (x1 : (⟨S768x256, .f32⟩ : BufTy).Contents (Elt Ideal))
    (bt : Fin 16384) (g : Fin 64) (dd : Fin 32) :
    val_main_v11 (F := Ideal) x0 x1 (ix3 bt g dd)
      = Qf (fun r k => x0 (ix2 r k)) (fun j k => x1 (ix2 j k)) (tok (bwin bt) g) (col 0 (bhead bt) dd) :=
  (v11_at x0 x1 bt g dd).trans (v1_at x0 x1 _ _)

theorem v14_Q (x0 : (⟨S131072x256, .f32⟩ : BufTy).Contents (Elt Ideal)) (x1 : (⟨S768x256, .f32⟩ : BufTy).Contents (Elt Ideal))
    (bt : Fin 16384) (g : Fin 64) (dd : Fin 32) :
    val_main_v14 (F := Ideal) x0 x1 (ix3 bt g dd)
      = Qf (fun r k => x0 (ix2 r k)) (fun j k => x1 (ix2 j k)) (tok (bwin bt) g) (col 1 (bhead bt) dd) :=
  (v14_at x0 x1 bt g dd).trans (v1_at x0 x1 _ _)

theorem v17_Q (x0 : (⟨S131072x256, .f32⟩ : BufTy).Contents (Elt Ideal)) (x1 : (⟨S768x256, .f32⟩ : BufTy).Contents (Elt Ideal))
    (bt : Fin 16384) (g : Fin 64) (dd : Fin 32) :
    val_main_v17 (F := Ideal) x0 x1 (ix3 bt g dd)
      = Qf (fun r k => x0 (ix2 r k)) (fun j k => x1 (ix2 j k)) (tok (bwin bt) g) (col 2 (bhead bt) dd) :=
  (v17_at x0 x1 bt g dd).trans (v1_at x0 x1 _ _)

end Cert.Attn.Ref

end
-- ==== Proof.RefSoftmax.lean ====
/- The reference program's attention core, read index by index for one batch index (one window, one head).

   With q, k, v the three rearranged thirds at a fixed batch index, the stages compute, in this order: the
   energies ∑ d, q g d · k kk d divided by √256; the row maximum, a fold of max from -∞ over the 64 keys, taken
   once more against -∞; the exponentials of the differences; their sum from 0; the quotients; and the
   weighted sum of the values.  These are the functions energy, rowmax, pexp, attn and win of the specification. -/
import proofs.«135834_j56075093017289_1_alg».proof.Proof.Spec
import proofs.«135834_j56075093017289_1_alg».proof.Proof.Gen.ReferenceIdeal.Read
import Idealize.ShloMosaic.Lib.ValueIdx
import Idealize.ShloMosaic.PureOps.Ideal
import Idealize.ShloMosaic.PureOps.Ideal.Laws
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx

section Core
variable (x0 : (⟨S131072x256, .f32⟩ : BufTy).Contents (Elt Ideal)) (x1 : (⟨S768x256, .f32⟩ : BufTy).Contents (Elt Ideal))
  (bt : Fin 16384)

/-- The queries, keys and values of one batch index. -/
def qB : Fin 64 → Fin 32 → EReal := fun g dd => val_main_v11 (F := Ideal) x0 x1 (ix3 bt g dd)
def kB : Fin 64 → Fin 32 → EReal := fun kk dd => val_main_v14 (F := Ideal) x0 x1 (ix3 bt kk dd)
def vB : Fin 64 → Fin 32 → EReal := fun kk dd => val_main_v17 (F := Ideal) x0 x1 (ix3 bt kk dd)

/-- The scaled energies. -/
theorem v21_at (g kk : Fin 64) :
    val_main_v21 (F := Ideal) x0 x1 (ix3 bt g kk) = energy scR (qB x0 x1 bt) (kB x0 x1 bt) g kk := by
  rw [val_main_v21_apply, val_main_v18_apply, val_main_v20_apply, val_main_v19_apply, val_main_cst_apply]
  simp only [Ideal.hostDivf_def, Ideal.hostUnary_sqrt_def, Ideal.ofBits_def]
  unfold energy scR qB kB
  refine congrArg (fun s => Ideal.div s (Ideal.sqrt (Ideal.ofBits .f32 0x43800000#32))) ?_
  refine Finset.sum_congr rfl fun d _ => ?_
  have e1 : lidx_main_v18 (ix3 bt g kk) d = ix3 bt g d :=
    funext fun a => Fin.ext (by match a with | ⟨0, _⟩ => rfl | ⟨1, _⟩ => rfl | ⟨2, _⟩ => rfl)
  have e2 : ridx_main_v18 (ix3 bt g kk) d = ix3 bt kk d :=
    funext fun a => Fin.ext (by match a with | ⟨0, _⟩ => rfl | ⟨1, _⟩ => rfl | ⟨2, _⟩ => rfl)
  rw [e1, e2]

/-- The reduced index (bt, g) with key kk put back on the last axis is (bt, g, kk). -/
theorem lift_ix3 (h : S16384x64x64.Reduces [2] S16384x64) (g : Fin 64) (kk : Fin (S16384x64x64.size 2)) :
    h.lift (ix2 bt g) kk = ix3 bt g (⟨kk.val, kk.isLt⟩ : Fin 64) := by
  funext c
  apply Fin.ext
  match c with
  | ⟨0, _⟩ => rfl
  | ⟨1, _⟩ => rfl
  | ⟨2, _⟩ => rfl

/-- The maximum stage: the fold of max from -∞ over the row's 64 energies. -/
theorem v22_at (g : Fin 64) :
    val_main_v22 (F := Ideal) x0 x1 (ix2 bt g)
      = (Finset.univ : Finset (Fin 64)).fold max negInf (energy scR (qB x0 x1 bt) (kB x0 x1 bt) g) := by
  have h : S16384x64x64.Reduces [2] S16384x64 := by decide
  unfold val_main_v22
  rw [Host.reduce_eq_fold_single FloatOps.maximumf _ _ reducesTo_S16384x64x64_S16384x64_d2 h h_S_]
  have hf : (val_main_v21 (F := Ideal) x0 x1 ∘ h.lift (ix2 bt g))
      = fun kk : Fin 64 => energy scR (qB x0 x1 bt) (kB x0 x1 bt) g kk :=
    funext fun kk => (congrArg (val_main_v21 (F := Ideal) x0 x1) (lift_ix3 bt h g kk)).trans (v21_at x0 x1 bt g _)
  exact congrArg (fun f => Finset.fold max negInf f (Finset.univ : Finset (Fin 64))) hf

/-- The maximum taken once more against -∞ is the specification's row maximum. -/
theorem v24_at (g : Fin 64) :
    val_main_v24 (F := Ideal) x0 x1 (ix2 bt g) = rowmax scR (qB x0 x1 bt) (kB x0 x1 bt) g := by
  rw [val_main_v24_apply, val_main_v23_apply, val_main_cst_1_apply, v22_at]
  simp only [Ideal.maximumf_def, Ideal.ofBits_def]
  rfl

/-- … and it is the same along the row. -/
theorem v26_at (g kk : Fin 64) :
    val_main_v26 (F := Ideal) x0 x1 (ix3 bt g kk) = rowmax scR (qB x0 x1 bt) (kB x0 x1 bt) g := by
  rw [val_main_v26_apply, val_main_v25_apply]
  have e : idx_main_v25 (idx_main_v26 (ix3 bt g kk)) = ix2 bt g :=
    funext fun a => Fin.ext (by match a with | ⟨0, _⟩ => rfl | ⟨1, _⟩ => rfl)
  rw [e, v24_at]

/-- The exponentials. -/
theorem v28_at (g kk : Fin 64) :
    val_main_v28 (F := Ideal) x0 x1 (ix3 bt g kk) = pexp scR (qB x0 x1 bt) (kB x0 x1 bt) g kk := by
  rw [val_main_v28_apply, val_main_v27_apply, v21_at, v26_at]
  simp only [Ideal.hostUnary_exp_def, Ideal.subf_def]
  rfl

/-- Their sum along the row, from 0. -/
theorem v29_at (g : Fin 64) :
    val_main_v29 (F := Ideal) x0 x1 (ix2 bt g) = ∑ k2 : Fin 64, pexp scR (qB x0 x1 bt) (kB x0 x1 bt) g k2 := by
  rw [val_main_v29_apply, val_main_cst_2_apply]
  simp only [Ideal.ofBits_def, Ideal.ofBits_zero_f32, zero_add]
  refine Finset.sum_congr rfl fun k2 _ => ?_
  have e : idx_main_v29 (ix2 bt g) k2 = ix3 bt g k2 :=
    funext fun a => Fin.ext (by match a with | ⟨0, _⟩ => rfl | ⟨1, _⟩ => rfl | ⟨2, _⟩ => rfl)
  rw [e, v28_at]

/-- The softmax weights. -/
theorem v32_at (g kk : Fin 64) :
    val_main_v32 (F := Ideal) x0 x1 (ix3 bt g kk) = attn scR (qB x0 x1 bt) (kB x0 x1 bt) g kk := by
  rw [val_main_v32_apply, val_main_v31_apply, val_main_v30_apply]
  have e : idx_main_v30 (idx_main_v31 (ix3 bt g kk)) = ix2 bt g :=
    funext fun a => Fin.ext (by match a with | ⟨0, _⟩ => rfl | ⟨1, _⟩ => rfl)
  rw [e, v29_at, v28_at]
  simp only [Ideal.hostDivf_def]
  rfl

/-- The attention output of the batch index: the specification's window function. -/
theorem v33_at (g : Fin 64) (d : Fin 32) :
    val_main_v33 (F := Ideal) x0 x1 (ix3 bt g d) = win scR (qB x0 x1 bt) (kB x0 x1 bt) (vB x0 x1 bt) g d := by
  rw [val_main_v33_apply]
  unfold win
  refine Finset.sum_congr rfl fun kk _ => ?_
  have e1 : lidx_main_v33 (ix3 bt g d) kk = ix3 bt g kk :=
    funext fun a => Fin.ext (by match a with | ⟨0, _⟩ => rfl | ⟨1, _⟩ => rfl | ⟨2, _⟩ => rfl)
  have e2 : ridx_main_v33 (ix3 bt g d) kk = ix3 bt kk d :=
    funext fun a => Fin.ext (by match a with | ⟨0, _⟩ => rfl | ⟨1, _⟩ => rfl | ⟨2, _⟩ => rfl)
  rw [e1, e2, v32_at]
  rfl

end Core

end Cert.Attn.Ref

end
-- ==== Proof.RefG.lean ====
/- The reference program's last stage is the specification function G at the reference's scaling.

   The attention outputs are rearranged back, by two reshapes and a transposition, into the array whose entry
   (r, c') is the output of window r / 64, head c' / 32, at place r % 64 and head column c' % 32; the last
   stages multiply it by the transposed output weights and add the bias along the rows. -/
import proofs.«135834_j56075093017289_1_alg».proof.Proof.Spec
import proofs.«135834_j56075093017289_1_alg».proof.Proof.Gen.ReferenceIdeal.Read
import proofs.«135834_j56075093017289_1_alg».proof.Proof.RefQ
import proofs.«135834_j56075093017289_1_alg».proof.Proof.RefSoftmax
import Idealize.ShloMosaic.Lib.ValueIdx
import Idealize.ShloMosaic.PureOps.Ideal
import Idealize.ShloMosaic.PureOps.Ideal.Laws

noncomputable section

namespace Cert.Attn.Ref

open Cert.ReferenceIdeal Cert.ReferenceIdeal.Gen Cert.ReferenceIdeal.Read Idealize.ShloMosaic Idealize.ShloMosaic.ValueIdx

/-- The batch index of window n and head h: 8 n + h. -/
abbrev bOf (n : Fin 2048) (h : Fin 8) : Fin 16384 := ⟨n.val * 8 + h.val, by have := n.isLt; have := h.isLt; omega⟩

theorem bwin_bOf (n : Fin 2048) (h : Fin 8) : bwin (bOf n h) = n :=
  Fin.ext (by have := h.isLt; show (n.val * 8 + h.val) / 8 = n.val; omega)
theorem bhead_bOf (n : Fin 2048) (h : Fin 8) : bhead (bOf n h) = h :=
  Fin.ext (by have := h.isLt; show (n.val * 8 + h.val) % 8 = h.val; omega)

/-! ## The layout stages back to rows and columns -/

/-- (r, c') comes from (window, head, place, head column): the flat position 256 r + c' splits as
    ((64 n + g) 8 + h) 32 + d, and the transposition swaps g and h. -/
theorem idxF (r : Fin 131072) (c' : Fin 256) :
    idx_main_v35 (idx_main_v36 (ix2 r c')) = ix4 (winOf r) (headOf c') (placeOf r) (hcolOf c') := by
  have hr := r.isLt
  have hc' := c'.isLt
  funext a
  apply Fin.ext
  match a with
  | ⟨0, _⟩ => show (r.val * 256 + c'.val) / 16384 = r.val / 64; omega
  | ⟨1, _⟩ => show (r.val * 256 + c'.val) / 32 % 8 = c'.val / 32; omega
  | ⟨2, _⟩ => show (r.val * 256 + c'.val) / 256 % 64 = r.val % 64; omega
  | ⟨3, _⟩ => show (r.val * 256 + c'.val) % 32 = c'.val % 32; omega

/-- (n, h, g, d) comes from batch index 8 n + h, place g, head column d. -/
theorem idxG (n : Fin 2048) (h : Fin 8) (g : Fin 64) (d : Fin 32) :
    idx_main_v34 (ix4 n h g d) = ix3 (bOf n h) g d := by
  have hn := n.isLt
  have hh := h.isLt
  have hg := g.isLt
  have hd := d.isLt
  funext a
  apply Fin.ext
  match a with
  | ⟨0, _⟩ => show (((n.val * 8 + h.val) * 64 + g.val) * 32 + d.val) / 2048 = n.val * 8 + h.val; omega
  | ⟨1, _⟩ => show (((n.val * 8 + h.val) * 64 + g.val) * 32 + d.val) / 32 % 64 = g.val; omega
  | ⟨2, _⟩ => show (((n.val * 8 + h.val) * 64 + g.val) * 32 + d.val) % 32 = d.val; omega

section Out
variable (x0 : (⟨S131072x256, .f32⟩ : BufTy).Contents (Elt Ideal)) (x1 : (⟨S768x256, .f32⟩ : BufTy).Contents (Elt Ideal))
  (x2 : (⟨S256x256, .f32⟩ : BufTy).Contents (Elt Ideal)) (x3 : (⟨S256, .f32⟩ : BufTy).Contents (Elt Ideal))

/-- Entry (r, c') of the rearranged attention output. -/
theorem v36_at (r : Fin 131072) (c' : Fin 256) :
    val_main_v36 (F := Ideal) x0 x1 (ix2 r c')
      = val_main_v33 (F := Ideal) x0 x1 (ix3 (bOf (winOf r) (headOf c')) (placeOf r) (hcolOf c')) := by
  rw [val_main_v36_apply, val_main_v35_apply, idxF, val_main_v34_apply, idxG]

/-- At batch index 8 n + h the three rearranged thirds are the projections of window n and head h. -/
theorem qB_eq (n : Fin 2048) (h : Fin 8) :
    qB x0 x1 (bOf n h) = fun g' dd => Qf (fun r k => x0 (ix2 r k)) (fun j k => x1 (ix2 j k)) (tok n g') (col 0 h dd) := by
  funext g' dd
  unfold qB
  rw [v11_Q, bwin_bOf, bhead_bOf]
theorem kB_eq (n : Fin 2048) (h : Fin 8) :
    kB x0 x1 (bOf n h) = fun kk dd => Qf (fun r k => x0 (ix2 r k)) (fun j k => x1 (ix2 j k)) (tok n kk) (col 1 h dd) := by
  funext kk dd
  unfold kB
  rw [v14_Q, bwin_bOf, bhead_bOf]
theorem vB_eq (n : Fin 2048) (h : Fin 8) :
    vB x0 x1 (bOf n h) = fun kk dd => Qf (fun r k => x0 (ix2 r k)) (fun j k => x1 (ix2 j k)) (tok n kk) (col 2 h dd) := by
  funext kk dd
  unfold vB
  rw [v17_Q, bwin_bOf, bhead_bOf]

/-- Entry (r, c') of the rearranged attention output is the specification's attention output. -/
theorem v36_Of (r : Fin 131072) (c' : Fin 256) :
    val_main_v36 (F := Ideal) x0 x1 (ix2 r c')
      = Of scR (Qf (fun r k => x0 (ix2 r k)) (fun j k => x1 (ix2 j k))) (winOf r) (headOf c') (placeOf r) (hcolOf c') := by
  rw [v36_at, v33_at, qB_eq, kB_eq, vB_eq]
  rfl

/-- The output projection. -/
theorem v38_at (r : Fin 131072) (c : Fin 256) :
    val_main_v38 (F := Ideal) x0 x1 x2 (ix2 r c)
      = ∑ c' : Fin 256, val_main_v36 (F := Ideal) x0 x1 (ix2 r c') * x2 (ix2 c c') := by
  rw [val_main_v38_apply]
  refine Finset.sum_congr rfl fun k _ => ?_
  rw [val_main_v37_apply]
  have e1 : lidx_main_v38 (ix2 r c) k = ix2 r k :=
    funext fun a => Fin.ext (by match a with | ⟨0, _⟩ => rfl | ⟨1, _⟩ => rfl)
  have e2 : idx_main_v37 (ridx_main_v38 (ix2 r c) k) = ix2 c k :=
    funext fun a => Fin.ext (by match a with | ⟨0, _⟩ => rfl | ⟨1, _⟩ => rfl)
  rw [e1, e2]

/-- The bias along the rows. -/
theorem v40_at (r : Fin 131072) (c : Fin 256) : val_main_v40 (F := Ideal) x3 (ix2 r c) = x3 (ix1 c) := by
  rw [val_main_v40_apply, val_main_v39_apply]
  exact congrArg x3 (funext fun a => Fin.ext (by match a with | ⟨0, _⟩ => rfl))

/-- The last stage at (r, c). -/
theorem v41_at (r : Fin 131072) (c : Fin 256) :
    val_main_v41 (F := Ideal) x0 x1 x2 x3 (ix2 r c)
      = Gf scR (fun r k => x0 (ix2 r k)) (fun j k => x1 (ix2 j k)) (fun c c' => x2 (ix2 c c')) (fun c => x3 (ix1 c)) r c := by
  rw [val_main_v41_apply, v38_at, v40_at]
  simp only [Ideal.addf_def]
  unfold Gf
  refine congrArg (· + x3 (ix1 c)) ?_
  refine Finset.sum_congr rfl fun c' _ => ?_
  rw [v36_Of]

end Out

/-- The reference program's last stage is G at the reference's scaling. -/
theorem ref_eq (x0 : (⟨2, ![131072, 256]⟩ : Shape).Idx → EReal) (x1 : (⟨2, ![768, 256]⟩ : Shape).Idx → EReal)
    (x2 : (⟨2, ![256, 256]⟩ : Shape).Idx → EReal) (x3 : (⟨1, ![256]⟩ : Shape).Idx → EReal) :
    Cert.ReferenceIdeal.Read.val_main_v41 (F := Ideal) x0 x1 x2 x3 = Cert.Attn.G Cert.Attn.scR x0 x1 x2 x3 := by
  funext i
  obtain ⟨r, c, rfl⟩ : ∃ (r : Fin 131072) (c : Fin 256), i = ix2 r c := ⟨i 0, i 1, eq_ix2 i⟩
  exact v41_at x0 x1 x2 x3 r c

end Cert.Attn.Ref

end
-- ==== Proof.lean ====
/- Fused windowed attention against its plain reference, over the extended reals.

   Both programs compute, for every window of 64 consecutive tokens and every head h of 8 (32 columns each):
   the projections qkv = x · w_qkvᵀ; the energies q_h · k_hᵀ, scaled; a softmax over the window's 64 keys (the row
   maximum taken from -∞, the exponentials of the differences, divided by their sum); the weighted sum of the values;
   the heads side by side; then · w_outᵀ + b_out. The kernel scales by the literal 1/16 and the reference divides by
   √256 = 16: one number, and the two scalings agree on every extended real. The kernel works on tiles of 2048 tokens
   (32 whole windows, so no window is cut), head by head; the reference works on the whole array re-laid as
   (window, head, token, column). Index by index both are the one function `Cert.Attn.G` of the four arguments
   (Proof/Spec.lean): sums are only re-indexed, never regrouped across an infinity, so the inputs' finiteness is not used.

   The kernel's side: one head as a function of q, k, v (Proof/KHead.lean), read at an index (KDots, KHeadIdx), the
   stored tile (KTile), the tile as `G` on its rows (KTileG), the blocks in memory and the result array (KBlocksA,
   KBlocks). The reference's side: its operations read at an index (RefQ, RefSoftmax, RefG). -/
import proofs.«135834_j56075093017289_1_alg».proof.Defs
import proofs.«135834_j56075093017289_1_alg».proof.Proof.Gen.Kernel
import proofs.«135834_j56075093017289_1_alg».proof.Proof.Gen.Kernel.Skeleton
import proofs.«135834_j56075093017289_1_alg».proof.Proof.Gen.Kernel.Launch
import proofs.«135834_j56075093017289_1_alg».proof.Proof.Gen.Kernel.Points
import proofs.«135834_j56075093017289_1_alg».proof.Proof.Gen.Kernel.Frame
import proofs.«135834_j56075093017289_1_alg».proof.Proof.Gen.KernelIdeal
import proofs.«135834_j56075093017289_1_alg».proof.Proof.Gen.KernelIdeal.Skeleton
import proofs.«135834_j56075093017289_1_alg».proof.Proof.Gen.KernelIdeal.Launch
import proofs.«135834_j56075093017289_1_alg».proof.Proof.Gen.KernelIdeal.Points
import proofs.«135834_j56075093017289_1_alg».proof.Proof.Gen.KernelIdeal.Frame
import proofs.«135834_j56075093017289_1_alg».proof.Proof.Gen.KernelIdeal.Value
import proofs.«135834_j56075093017289_1_alg».proof.Proof.Gen.ReferenceIdeal
import proofs.«135834_j56075093017289_1_alg».proof.Proof.Gen.ReferenceIdeal.Run
import proofs.«135834_j56075093017289_1_alg».proof.Proof.Gen.ReferenceIdeal.Read
import proofs.«135834_j56075093017289_1_alg».proof.Proof.Gen.Pre_finite_inputs
import proofs.«135834_j56075093017289_1_alg».proof.Proof.KBlocks
import proofs.«135834_j56075093017289_1_alg».proof.Proof.RefG
import Idealize.ShloMosaic.Adequacy
import Idealize.ShloMosaic.Init

noncomputable section

namespace Cert.Proof

open Idealize.ShloMosaic Idealize.SL.Sem

/-- The word-level kernel runs, and its arguments end unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at `G` of the arguments:
    the kernel block by block, the reference operation by operation, its division by √256 the kernel's factor 1/16. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.Attn.Ref.ref_eq, Cert.Attn.scR_eq_scK,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
